-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_arg12 : FVec F S128x256 .f32) (main_arg13 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S256x256 .f32) (main_arg11 : FVec F S256 .f32) (main_arg12 : FVec F S128x256 .f32) (main_arg13 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S256x256 .f32) (main_arg11 : FVec F S256 .f32) (main_arg12 : FVec F S128x256 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S256x256 .f32) (main_arg11 : FVec F S256 .f32) (main_arg12 : FVec F S128x256 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S256x128 : Shape := ⟨2, ![256, 128]⟩
abbrev S1x128 : Shape := ⟨2, ![1, 128]⟩
abbrev S1x256 : Shape := ⟨2, ![1, 256]⟩
abbrev S2000x128 : Shape := ⟨2, ![2000, 128]⟩
abbrev S2000 : Shape := ⟨1, ![2000]⟩
abbrev S2000x1 : Shape := ⟨2, ![2000, 1]⟩
abbrev S2000x256 : Shape := ⟨2, ![2000, 256]⟩

abbrev nBuf : Space → Nat
  | .hbm => 64
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256x256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S128x128, .f32⟩
  | .hbm, ⟨45, _⟩ => ⟨S128x128, .bf16⟩
  | .hbm, ⟨46, _⟩ => ⟨S128x128, .f32⟩
  | .hbm, ⟨47, _⟩ => ⟨S128x128, .bf16⟩
  | .hbm, ⟨48, _⟩ => ⟨S256x256, .f32⟩
  | .hbm, ⟨49, _⟩ => ⟨S128x256, .f32⟩
  | .hbm, ⟨50, _⟩ => ⟨S128x256, .bf16⟩
  | .hbm, ⟨51, _⟩ => ⟨S128x256, .f32⟩
  | .hbm, ⟨52, _⟩ => ⟨S128x256, .bf16⟩
  | .hbm, ⟨53, _⟩ => ⟨S256x128, .f32⟩
  | .hbm, ⟨54, _⟩ => ⟨S256x128, .bf16⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x256, .f32⟩
  | .hbm, ⟨62, _⟩ => ⟨S1x128, .f32⟩
  | .hbm, ⟨63, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x256, .bf16⟩
  | .local _ .vmem, ⟨15, _⟩ => ⟨S128x256, .bf16⟩
  | .local _ .vmem, ⟨16, _⟩ => ⟨S1x256, .f32⟩
  | .local _ .vmem, ⟨17, _⟩ => ⟨S256x128, .bf16⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  transposes_S256x256_S256x256_1_0 : S256x256.Transposes [1, 0] S256x256
  slices_S256x256_S128x256_0_0 : S256x256.Slices ![0, 0] S128x256
  slices_S256x256_S128x256_128_0 : S256x256.Slices ![128, 0] S128x256
  transposes_S128x256_S256x128_1_0 : S128x256.Transposes [1, 0] S256x128
  shapeCasts_S128_S1x128 : S128.ShapeCasts S1x128
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x256.size a ≤ S128x256.size a
  hwx0_11 : ∀ i : grid0.Coords, EltTy.bits .bf16 = 32 ∨ (Rect.block (s := S128x256) S128x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x256.size a ≤ S128x256.size a
  hwx0_12 : ∀ i : grid0.Coords, EltTy.bits .bf16 = 32 ∨ (Rect.block (s := S128x256) S128x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x128.size a ≤ S256x128.size a
  hwx0_14 : ∀ i : grid0.Coords, EltTy.bits .bf16 = 32 ∨ (Rect.block (s := S256x128) S256x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x128.size a ≤ S100000x128.size a
  hwx0_16 : ∀ i : grid0.Coords, EltTy.bits .f32 = 32 ∨ (Rect.block (s := S100000x128) S2000x128.size (cc0_transform_16 i) (hinb0_16 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S128x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v32) S128x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v41) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v34) S256x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v42) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v43) S2000x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S256x128 : Shape := ⟨2, ![256, 128]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S256x256, .f32⟩
  | 11 => ⟨S256, .f32⟩
  | 12 => ⟨S128x256, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S100000x128, .f32⟩
  | 32 => ⟨S128x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000, .f32⟩
  | 39 => ⟨S100000x1, .f32⟩
  | 40 => ⟨S_, .f32⟩
  | 41 => ⟨S100000x1, .f32⟩
  | 42 => ⟨S100000x1, .f32⟩
  | 43 => ⟨S100000x128, .f32⟩
  | 44 => ⟨S100000x128, .f32⟩
  | 45 => ⟨S100000x128, .f32⟩
  | 46 => ⟨S_, .f32⟩
  | 47 => ⟨S100000, .f32⟩
  | 48 => ⟨S100000x1, .f32⟩
  | 49 => ⟨S_, .f32⟩
  | 50 => ⟨S100000x1, .f32⟩
  | 51 => ⟨S100000x1, .f32⟩
  | 52 => ⟨S100000x128, .f32⟩
  | 53 => ⟨S100000x128, .f32⟩
  | 54 => ⟨S_, .f32⟩
  | 55 => ⟨S100000x1, .f32⟩
  | 56 => ⟨S100000x1, .f32⟩
  | 57 => ⟨S100000x1, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S100000x128, .f32⟩
  | 84 => ⟨S128x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000, .f32⟩
  | 91 => ⟨S100000x1, .f32⟩
  | 92 => ⟨S_, .f32⟩
  | 93 => ⟨S100000x1, .f32⟩
  | 94 => ⟨S100000x1, .f32⟩
  | 95 => ⟨S100000x128, .f32⟩
  | 96 => ⟨S100000x128, .f32⟩
  | 97 => ⟨S100000x128, .f32⟩
  | 98 => ⟨S_, .f32⟩
  | 99 => ⟨S100000, .f32⟩
  | 100 => ⟨S100000x1, .f32⟩
  | 101 => ⟨S_, .f32⟩
  | 102 => ⟨S100000x1, .f32⟩
  | 103 => ⟨S100000x1, .f32⟩
  | 104 => ⟨S100000x128, .f32⟩
  | 105 => ⟨S100000x128, .f32⟩
  | 106 => ⟨S_, .f32⟩
  | 107 => ⟨S100000x1, .f32⟩
  | 108 => ⟨S100000x1, .f32⟩
  | 109 => ⟨S100000x1, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S100000x256, .f32⟩
  | 123 => ⟨S256x256, .f32⟩
  | 124 => ⟨S100000x256, .f32⟩
  | 125 => ⟨S1x256, .f32⟩
  | 126 => ⟨S100000x256, .f32⟩
  | 127 => ⟨S100000x256, .f32⟩
  | _ => ⟨S100000x128, .f32⟩

abbrev hbmTy0_1 (i : Nat) : BufTy := match i % 128 with
  | 0 => ⟨S_, .f32⟩
  | 1 => ⟨S100000x256, .f32⟩
  | 2 => ⟨S100000x256, .f32⟩
  | 3 => ⟨S256x128, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_call2_cst : Ref sig .tc := ⟨.hbm, 128, rfl⟩
abbrev main_call2_v0 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call3_cst : Ref sig .tc := ⟨.hbm, 136, rfl⟩
abbrev main_call3_v0 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S128x256_S256x128_1_0 : S128x256.Transposes [1, 0] S256x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.GinRow.lean ====
/-
  One node's row of a two-branch residual graph layer followed by a merge network, on the extended reals.

  A node carries a feature row x of 128 entries and two neighbourhood sums a₁, a₂ (one per edge direction).  Each branch
  forms h = x + a, passes it through an affine map, normalises the 128 results to mean zero and unit variance
  (the variance shifted by a small constant before the reciprocal square root), scales and shifts them entry by entry,
  clips at zero and adds h back.  The two branch rows are then laid side by side (256 entries), passed through an affine
  map to 256 hidden entries, clipped at zero, passed through an affine map to 128 entries and clipped again.

  The contraction over the 256 joined entries is written as the sum over the first branch's 128 entries plus the sum
  over the second's: `sum_split` says that this is the contraction over all 256 columns, in any commutative monoid —
  nothing about finiteness is used anywhere.

  The three float constants (128, the variance shift, zero) are kept as the words the programs print; both programs
  print the same words, so their values are never needed.
-/
import Idealize.ShloMosaic.PureOps.Ideal
import Idealize.ShloMosaic.Lib.ValueIdx
import Mathlib.Algebra.BigOperators.Fin

noncomputable section

namespace Cert.GinRow

open Idealize.ShloMosaic Idealize.ShloMosaic.ValueIdx

/-- The mean of 128 entries: their sum divided by the float 128. -/
def mean (v : Fin 128 → EReal) : EReal := Ideal.div (∑ k : Fin 128, v k) (Ideal.ofBits .f32 0x43000000#32)

/-- Entry j of a row normalised to mean zero and unit variance: the centred entry times the reciprocal square root of
    the mean squared deviation shifted by the small constant. -/
def normed (v : Fin 128 → EReal) (j : Fin 128) : EReal :=
  (v j - mean v) * Ideal.rsqrt (mean (fun k => (v k - mean v) * (v k - mean v)) + Ideal.ofBits .f32 0x3727C5AC#32)

/-- Clipping at zero. -/
def relu (x : EReal) : EReal := max x (Ideal.ofBits .f32 0x00000000#32)

/-- An affine map with the weight stored by output rows: entry j is Σ_k h k · W j k + b j. -/
def affine {K N : ℕ} (h : Fin K → EReal) (W : Fin N → Fin K → EReal) (b : Fin N → EReal) (j : Fin N) : EReal :=
  (∑ k : Fin K, h k * W j k) + b j

/-- The weights of the layer. -/
structure Params where
  W1 : Fin 128 → Fin 128 → EReal
  b1 : Fin 128 → EReal
  g1 : Fin 128 → EReal
  bt1 : Fin 128 → EReal
  W2 : Fin 128 → Fin 128 → EReal
  b2 : Fin 128 → EReal
  g2 : Fin 128 → EReal
  bt2 : Fin 128 → EReal
  Wl1 : Fin 256 → Fin 256 → EReal
  bl1 : Fin 256 → EReal
  Wl2 : Fin 128 → Fin 256 → EReal
  bl2 : Fin 128 → EReal

/-- One branch: h + relu(normed(affine h) · g + β) with h = x + a. -/
def branch (x a : Fin 128 → EReal) (W : Fin 128 → Fin 128 → EReal) (b g bt : Fin 128 → EReal) (j : Fin 128) : EReal :=
  (x j + a j) + relu (normed (affine (fun k => x k + a k) W b) j * g j + bt j)

/-- Hidden entry l of the merge network over the two branch rows laid side by side: the first row meets columns
    0 … 127 of the weight's row l, the second meets columns 128 … 255. -/
def hidden (P : Params) (r1 r2 : Fin 128 → EReal) (l : Fin 256) : EReal :=
  relu (((∑ k : Fin 128, r1 k * P.Wl1 l (Fin.castAdd 128 k)) + ∑ k : Fin 128, r2 k * P.Wl1 l (Fin.natAdd 128 k)) + P.bl1 l)

/-- The row the layer produces for a node with features x and neighbourhood sums a₁, a₂. -/
def rowOut (P : Params) (x a1 a2 : Fin 128 → EReal) (j : Fin 128) : EReal :=
  relu (affine (hidden P (branch x a1 P.W1 P.b1 P.g1 P.bt1) (branch x a2 P.W2 P.b2 P.g2 P.bt2)) P.Wl2 P.bl2 j)

/-- A contraction over 256 joined columns is the contraction over the first 128 plus the contraction over the last 128. -/
theorem sum_split {M : Type*} [AddCommMonoid M] (f : Fin 256 → M) :
    ∑ l : Fin 256, f l = (∑ k : Fin 128, f (Fin.castAdd 128 k)) + ∑ k : Fin 128, f (Fin.natAdd 128 k) :=
  Fin.sum_univ_add (a := 128) (b := 128) f

/-- The weights as read off the argument arrays: a matrix at (row, column), a vector at its index. -/
def paramsOf (W1 : (⟨2, ![128, 128]⟩ : Shape).Idx → EReal) (b1 g1 bt1 : (⟨1, ![128]⟩ : Shape).Idx → EReal)
    (W2 : (⟨2, ![128, 128]⟩ : Shape).Idx → EReal) (b2 g2 bt2 : (⟨1, ![128]⟩ : Shape).Idx → EReal)
    (Wl1 : (⟨2, ![256, 256]⟩ : Shape).Idx → EReal) (bl1 : (⟨1, ![256]⟩ : Shape).Idx → EReal)
    (Wl2 : (⟨2, ![128, 256]⟩ : Shape).Idx → EReal) (bl2 : (⟨1, ![128]⟩ : Shape).Idx → EReal) : Params where
  W1 j k := W1 (ix2 j k)
  b1 j := b1 (ix1 j)
  g1 j := g1 (ix1 j)
  bt1 j := bt1 (ix1 j)
  W2 j k := W2 (ix2 j k)
  b2 j := b2 (ix1 j)
  g2 j := g2 (ix1 j)
  bt2 j := bt2 (ix1 j)
  Wl1 l c := Wl1 (ix2 l c)
  bl1 l := bl1 (ix1 l)
  Wl2 j l := Wl2 (ix2 j l)
  bl2 j := bl2 (ix1 j)

/-- Row n of an array of 128-entry rows. -/
def rowAt {A : ℕ} (x : (⟨2, ![A, 128]⟩ : Shape).Idx → EReal) (n : Fin A) : Fin 128 → EReal := fun k => x (ix2 n k)

/-- The whole result array: row n is the layer's row for node n. -/
def result (P : Params) (x a1 a2 : (⟨2, ![100000, 128]⟩ : Shape).Idx → EReal) : (⟨2, ![100000, 128]⟩ : Shape).Idx → EReal :=
  fun i => rowOut P (rowAt x (i 0)) (rowAt a1 (i 0)) (rowAt a2 (i 0)) (i 1)

theorem result_apply (P : Params) (x a1 a2 : (⟨2, ![100000, 128]⟩ : Shape).Idx → EReal) (n : Fin 100000) (j : Fin 128) :
    result P x a1 a2 (ix2 n j) = rowOut P (rowAt x n) (rowAt a1 n) (rowAt a2 n) j := rfl

end Cert.GinRow

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibRowSumZero.lean ====
/-
  A float sum of an [a, b] array along its second axis, started from the zero pattern, read at a row — with the
  accumulator's neutrality stated as the equation of the two zero patterns, the form in which a printed kernel body carries
  it (a lemma whose hypothesis is stated through the additive neutral element does not rewrite such a term) —, and a
  vector's reciprocal square root read at an index. General facts: nothing here mentions a program.

  • `rowSum_zero_apply`: at row `p` the sum is the sum over `k` of the array at `(p, k)`.
  • `rsqrt_apply`: the reciprocal square root of a vector, at an index, is that of its entry.
-/
import Idealize.ShloMosaic.Lib.ValueIdx
import Idealize.ShloMosaic.PureOps.Ideal.Laws

noncomputable section

namespace Cert.RowSumZero

open Idealize.ShloMosaic Idealize.ShloMosaic.ValueIdx

/-- The sum of an `[a, b]` array along its second axis from a zero accumulator reads, at `p`, the sum over `k` of the
    array at `(p, k)` (the accumulator's neutrality stated as the equation of the two zero patterns). -/
theorem rowSum_zero_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- A vector's reciprocal square root, entry by entry. -/
theorem rsqrt_apply {s : Shape} {φ : FTy} (v : FVec Ideal s φ) (i : s.Idx) : rsqrt v i = Ideal.rsqrt (v i) := rfl

end Cert.RowSumZero

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.GinBlock.lean ====
/-
  The building blocks of the kernel's body on a block of 2000 node rows, each read at an entry (p, q) on the extended
  reals: an affine stage (a product with a weight into the zero splat plus one bias row broadcast down the rows) is
  Σ_k h(p,k)·w(k,q) + b(0,q); the mean of a row taken by a lane sum, kept as a column and divided by the splat of 128;
  and the normalisation built from it, which at (p, q) is the row's entry q normalised to mean zero and unit variance.
  Every entry of the result depends on row p of the operand only.
-/
import proofs.«104561_j60120952209623_2_alg».proof.Proof.Gen.KernelIdeal.Skeleton
import proofs.«104561_j60120952209623_2_alg».proof.Proof.GinRow
import proofs.«104561_j60120952209623_2_alg».proof.Proof.LibPlainMatmul
import proofs.«104561_j60120952209623_2_alg».proof.Proof.LibRowSumZero
import proofs.«104561_j60120952209623_2_alg».proof.Proof.LibKeepdims
import Idealize.ShloMosaic.Lib.ValueLayout
import Idealize.ShloMosaic.Lib.Pipeline.Value

noncomputable section

namespace Cert.GinRow.Block

open Cert.KernelIdeal Cert.KernelIdeal.Gen Idealize.ShloMosaic Idealize.ShloMosaic.ValueIdx

/-- Row p of a block. -/
abbrev row (v : FVec Ideal S2000x128 .f32) (p : Fin 2000) : Fin 128 → EReal := fun k => v (ix2 p k)

/-- An affine stage into 128 columns at (p, q). -/
theorem affine128_apply (h : FVec Ideal S2000x128 .bf16) (w : FVec Ideal S128x128 .bf16) (b : FVec Ideal S1x128 .f32)
    (p : Fin 2000) (q : Fin 128) :
    addf (matmul dot_S2000x128_S128x128_S2000x128_1_0_0_1_n_n none h w (constant S2000x128 .f32 0x00000000#32))
        (broadcastTo S2000x128 b broadcasts_S1x128_S2000x128) (ix2 p q)
      = (∑ k : Fin 128, h (ix2 p k) * w (ix2 k q)) + b (ix2 (0 : Fin 1) q) := by
  show matmul dot_S2000x128_S128x128_S2000x128_1_0_0_1_n_n none h w (constant S2000x128 .f32 0x00000000#32) (ix2 p q)
      + broadcastTo S2000x128 b broadcasts_S1x128_S2000x128 (ix2 p q) = _
  exact congrArg₂ (· + ·)
    (Cert.PlainMatmul.matmul_zero_apply dot_S2000x128_S128x128_S2000x128_1_0_0_1_n_n.wf none h w p q)
    (broadcastTo_1b_ab_apply b broadcasts_S1x128_S2000x128 p q)

/-- The column of row means of a block: the lane sum from zero, kept as a column, over the splat of 128. -/
def meanCol (u : FVec Ideal S2000x128 .f32) : FVec Ideal S2000x1 .f32 :=
  divf (shapeCast S2000x1 (multiReduction .add [1] S2000 u 0x00000000#32 reduces_S2000x128_S2000 (.inl rfl) rfl) shapeCasts_S2000_S2000x1)
    (broadcast S2000x1 (Scalar.ofBits .f32 0x43000000#32))

theorem meanCol_apply (u : FVec Ideal S2000x128 .f32) (p : Fin 2000) :
    meanCol u (ix2 p (0 : Fin 1)) = mean (row u p) := by
  unfold meanCol mean
  show Ideal.div (shapeCast S2000x1 (multiReduction .add [1] S2000 u 0x00000000#32 reduces_S2000x128_S2000 (.inl rfl) rfl) shapeCasts_S2000_S2000x1 (ix2 p (0 : Fin 1))) _ = _
  exact congrArg (Ideal.div · _)
    ((Cert.Keepdims.shapeCast_a_a1_apply _ shapeCasts_S2000_S2000x1 p 0).trans
      (Cert.RowSumZero.rowSum_zero_apply u reduces_S2000x128_S2000 (.inl rfl) rfl p))

/-- A block with each row's mean taken off. -/
def centred (v : FVec Ideal S2000x128 .f32) : FVec Ideal S2000x128 .f32 :=
  subf v (broadcastTo S2000x128 (meanCol v) broadcasts_S2000x1_S2000x128)

theorem centred_apply (v : FVec Ideal S2000x128 .f32) (p : Fin 2000) (k : Fin 128) :
    centred v (ix2 p k) = v (ix2 p k) - mean (row v p) := by
  unfold centred
  show v (ix2 p k) - broadcastTo S2000x128 (meanCol v) broadcasts_S2000x1_S2000x128 (ix2 p k) = _
  exact congrArg (v (ix2 p k) - ·)
    ((Cert.Keepdims.broadcastTo_a1_ab_apply (meanCol v) broadcasts_S2000x1_S2000x128 p k).trans (meanCol_apply v p))

/-- The normalised block: the centred block times the column of reciprocal square roots of the shifted variances. -/
def normedBlock (v : FVec Ideal S2000x128 .f32) : FVec Ideal S2000x128 .f32 :=
  mulf (centred v)
    (broadcastTo S2000x128
      (rsqrt (addf (meanCol (mulf (centred v) (centred v))) (broadcast S2000x1 (Scalar.ofBits .f32 0x3727C5AC#32))))
      broadcasts_S2000x1_S2000x128)

theorem normedBlock_apply (v : FVec Ideal S2000x128 .f32) (p : Fin 2000) (q : Fin 128) :
    normedBlock v (ix2 p q) = normed (row v p) q := by
  unfold normedBlock normed
  show centred v (ix2 p q) * broadcastTo S2000x128 _ broadcasts_S2000x1_S2000x128 (ix2 p q) = _
  refine congrArg₂ (· * ·) (centred_apply v p q) ?_
  refine (Cert.Keepdims.broadcastTo_a1_ab_apply _ broadcasts_S2000x1_S2000x128 p q).trans ?_
  show Ideal.rsqrt (meanCol (mulf (centred v) (centred v)) (ix2 p (0 : Fin 1)) + _) = _
  refine congrArg (fun z => Ideal.rsqrt (z + _)) ((meanCol_apply _ p).trans ?_)
  refine congrArg mean (funext fun k => ?_)
  show centred v (ix2 p k) * centred v (ix2 p k) = _
  rw [centred_apply]

end Cert.GinRow.Block

end
-- ==== Proof.GinPayload.lean ====
/-
  The kernel body's result on a block of 2000 node rows, read at an entry (p, q): it is the layer's row for the node in
  row p of the block, whatever the other rows hold.  The block's operands are the feature rows x, the two
  neighbourhood-sum blocks a₁ and a₂, and the weights as the kernel is handed them: each weight matrix transposed
  (entry (k, j) is the weight's (j, k)), the first merge weight cut into its upper and lower 128 rows after the
  transposition, and each bias or gain vector as one row.
-/
import proofs.«104561_j60120952209623_2_alg».proof.Proof.GinBlock

noncomputable section

namespace Cert.GinRow.Payload

open Cert.KernelIdeal Cert.KernelIdeal.Gen Idealize.ShloMosaic Idealize.ShloMosaic.ValueIdx Cert.GinRow.Block

/-- h = x + a, entry by entry. -/
theorem sumIn_apply (x0 x1 : Vec Ideal S2000x128 .f32) (p : Fin 2000) (k : Fin 128) :
    k0_pay3 x0 x1 (ix2 p k) = x0 (ix2 p k) + x1 (ix2 p k) := by
  unfold k0_pay3
  show x0 (ix2 p k) + shapeCast S2000x128 x1 shapeCasts_S2000x128_S2000x128 (ix2 p k) = _
  rw [shapeCast_self]

/-- The first branch before its shift: the normalised affine image of h = x + a₁, times the gain. -/
theorem scaled1_apply (x0 x1 : Vec Ideal S2000x128 .f32) (x3 : Vec Ideal S128x128 .bf16) (x4 x5 : Vec Ideal S1x128 .f32)
    (W : Fin 128 → Fin 128 → EReal) (b g : Fin 128 → EReal)
    (hW : ∀ (k j : Fin 128), x3 (ix2 k j) = W j k) (hb : ∀ j : Fin 128, x4 (ix2 (0 : Fin 1) j) = b j)
    (hg : ∀ j : Fin 128, x5 (ix2 (0 : Fin 1) j) = g j) (p : Fin 2000) (q : Fin 128) :
    k0_pay4 x0 x1 x3 x4 x5 (ix2 p q) = normed (affine (fun k => x0 (ix2 p k) + x1 (ix2 p k)) W b) q * g q := by
  have e : k0_pay4 x0 x1 x3 x4 x5
      = mulf (normedBlock (addf (matmul dot_S2000x128_S128x128_S2000x128_1_0_0_1_n_n none
              (truncf .bf16 (k0_pay3 x0 x1) bitsLt_bf16_f32) (shapeCast S128x128 x3 shapeCasts_S128x128_S128x128)
              (constant S2000x128 .f32 0x00000000#32))
            (broadcastTo S2000x128 (shapeCast S1x128 x4 shapeCasts_S1x128_S1x128) broadcasts_S1x128_S2000x128)))
          (broadcastTo S2000x128 (shapeCast S1x128 x5 shapeCasts_S1x128_S1x128) broadcasts_S1x128_S2000x128) := rfl
  rw [e]
  show normedBlock _ (ix2 p q) * broadcastTo S2000x128 (shapeCast S1x128 x5 shapeCasts_S1x128_S1x128) broadcasts_S1x128_S2000x128 (ix2 p q) = _
  refine congrArg₂ (· * ·) ((normedBlock_apply _ p q).trans (congrArg (normed · q) (funext fun j => ?_))) ?_
  · refine (affine128_apply _ _ _ p j).trans ?_
    unfold affine
    refine congrArg₂ (· + ·) (Finset.sum_congr rfl fun k _ => congrArg₂ (· * ·) ?_ ?_) ?_
    · exact sumIn_apply x0 x1 p k
    · rw [shapeCast_self]; exact hW k j
    · rw [shapeCast_self]; exact hb j
  · refine (broadcastTo_1b_ab_apply _ broadcasts_S1x128_S2000x128 p q).trans ?_
    rw [shapeCast_self]; exact hg q

/-- The first branch's row: h + relu(normed(affine h)·γ + β) with h = x + a₁. -/
theorem branch1_apply (x0 x1 : Vec Ideal S2000x128 .f32) (x3 : Vec Ideal S128x128 .bf16) (x4 x5 x6 : Vec Ideal S1x128 .f32)
    (W : Fin 128 → Fin 128 → EReal) (b g bt : Fin 128 → EReal)
    (hW : ∀ (k j : Fin 128), x3 (ix2 k j) = W j k) (hb : ∀ j : Fin 128, x4 (ix2 (0 : Fin 1) j) = b j)
    (hg : ∀ j : Fin 128, x5 (ix2 (0 : Fin 1) j) = g j) (hbt : ∀ j : Fin 128, x6 (ix2 (0 : Fin 1) j) = bt j)
    (p : Fin 2000) (q : Fin 128) :
    k0_pay7 (k0_pay3 x0 x1) (k0_pay4 x0 x1 x3 x4 x5) (k0_pay5 x6) (ix2 p q)
      = branch (fun k => x0 (ix2 p k)) (fun k => x1 (ix2 p k)) W b g bt q := by
  unfold k0_pay7 k0_pay5 branch relu
  show k0_pay3 x0 x1 (ix2 p q)
      + max (k0_pay4 x0 x1 x3 x4 x5 (ix2 p q)
          + broadcastTo S2000x128 (shapeCast S1x128 x6 shapeCasts_S1x128_S1x128) broadcasts_S1x128_S2000x128 (ix2 p q)) _ = _
  refine congrArg₂ (· + ·) (sumIn_apply x0 x1 p q) (congrArg (max · _) (congrArg₂ (· + ·) ?_ ?_))
  · exact scaled1_apply x0 x1 x3 x4 x5 W b g hW hb hg p q
  · refine (broadcastTo_1b_ab_apply _ broadcasts_S1x128_S2000x128 p q).trans ?_
    rw [shapeCast_self]; exact hbt q

/-- The second branch's row, from the features and the other direction's neighbourhood sums. -/
theorem branch2_apply (x0 : Vec Ideal S2000x128 .f32) (a : FVec Ideal S2000x128 .f32) (x7 : Vec Ideal S128x128 .bf16)
    (x8 x9 x10 : Vec Ideal S1x128 .f32)
    (W : Fin 128 → Fin 128 → EReal) (b g bt : Fin 128 → EReal)
    (hW : ∀ (k j : Fin 128), x7 (ix2 k j) = W j k) (hb : ∀ j : Fin 128, x8 (ix2 (0 : Fin 1) j) = b j)
    (hg : ∀ j : Fin 128, x9 (ix2 (0 : Fin 1) j) = g j) (hbt : ∀ j : Fin 128, x10 (ix2 (0 : Fin 1) j) = bt j)
    (p : Fin 2000) (q : Fin 128) :
    k0_pay6 x0 a x7 x8 x9 x10 (ix2 p q) = branch (fun k => x0 (ix2 p k)) (fun k => a (ix2 p k)) W b g bt q := by
  have e : k0_pay6 x0 a x7 x8 x9 x10
      = addf (addf x0 a) (maximumf (addf (mulf (normedBlock (addf (matmul dot_S2000x128_S128x128_S2000x128_1_0_0_1_n_n none
              (truncf .bf16 (addf x0 a) bitsLt_bf16_f32) (shapeCast S128x128 x7 shapeCasts_S128x128_S128x128)
              (constant S2000x128 .f32 0x00000000#32))
            (broadcastTo S2000x128 (shapeCast S1x128 x8 shapeCasts_S1x128_S1x128) broadcasts_S1x128_S2000x128)))
          (broadcastTo S2000x128 (shapeCast S1x128 x9 shapeCasts_S1x128_S1x128) broadcasts_S1x128_S2000x128))
          (broadcastTo S2000x128 (shapeCast S1x128 x10 shapeCasts_S1x128_S1x128) broadcasts_S1x128_S2000x128))
          (broadcast S2000x128 (Scalar.ofBits .f32 0x00000000#32))) := rfl
  rw [e]
  unfold branch relu
  show (x0 (ix2 p q) + a (ix2 p q))
      + max (normedBlock _ (ix2 p q) * broadcastTo S2000x128 (shapeCast S1x128 x9 shapeCasts_S1x128_S1x128) broadcasts_S1x128_S2000x128 (ix2 p q)
          + broadcastTo S2000x128 (shapeCast S1x128 x10 shapeCasts_S1x128_S1x128) broadcasts_S1x128_S2000x128 (ix2 p q)) _ = _
  refine congrArg ((x0 (ix2 p q) + a (ix2 p q)) + ·) (congrArg (max · _) (congrArg₂ (· + ·) (congrArg₂ (· * ·) ?_ ?_) ?_))
  · refine (normedBlock_apply _ p q).trans (congrArg (normed · q) (funext fun j => ?_))
    refine (affine128_apply _ _ _ p j).trans ?_
    unfold affine
    refine congrArg₂ (· + ·) (Finset.sum_congr rfl fun k _ => congrArg₂ (· * ·) rfl ?_) ?_
    · rw [shapeCast_self]; exact hW k j
    · rw [shapeCast_self]; exact hb j
  · refine (broadcastTo_1b_ab_apply _ broadcasts_S1x128_S2000x128 p q).trans ?_
    rw [shapeCast_self]; exact hg q
  · refine (broadcastTo_1b_ab_apply _ broadcasts_S1x128_S2000x128 p q).trans ?_
    rw [shapeCast_self]; exact hbt q

/-- The hidden block of the merge network: the first branch's block times the upper half of the transposed weight plus
    the second's times the lower half, plus the bias row, clipped at zero. -/
def hiddenBlock (r2 : FVec Ideal S2000x128 .f32) (r1 : FVec Ideal S2000x128 .bf16) (x11 x12 : Vec Ideal S128x256 .bf16)
    (x13 : Vec Ideal S1x256 .f32) : FVec Ideal S2000x256 .f32 :=
  maximumf (addf (addf
      (matmul dot_S2000x128_S128x256_S2000x256_1_0_0_1_n_n none r1
        (shapeCast S128x256 x11 shapeCasts_S128x256_S128x256 : FVec Ideal S128x256 .bf16)
        (constant S2000x256 .f32 0x00000000#32))
      (matmul dot_S2000x128_S128x256_S2000x256_1_0_0_1_n_n none (truncf .bf16 r2 bitsLt_bf16_f32)
        (shapeCast S128x256 x12 shapeCasts_S128x256_S128x256 : FVec Ideal S128x256 .bf16)
        (constant S2000x256 .f32 0x00000000#32)))
      (broadcastTo S2000x256 (shapeCast S1x256 x13 shapeCasts_S1x256_S1x256) broadcasts_S1x256_S2000x256))
    (broadcast S2000x256 (Scalar.ofBits .f32 0x00000000#32))

theorem hiddenBlock_apply (P : Params) (r2 : FVec Ideal S2000x128 .f32) (r1 : FVec Ideal S2000x128 .bf16)
    (x11 x12 : Vec Ideal S128x256 .bf16) (x13 : Vec Ideal S1x256 .f32)
    (hT : ∀ (k : Fin 128) (l : Fin 256), x11 (ix2 k l) = P.Wl1 l (Fin.castAdd 128 k))
    (hB : ∀ (k : Fin 128) (l : Fin 256), x12 (ix2 k l) = P.Wl1 l (Fin.natAdd 128 k))
    (hb : ∀ l : Fin 256, x13 (ix2 (0 : Fin 1) l) = P.bl1 l) (p : Fin 2000) (l : Fin 256) :
    hiddenBlock r2 r1 x11 x12 x13 (ix2 p l) = hidden P (fun k => r1 (ix2 p k)) (fun k => r2 (ix2 p k)) l := by
  unfold hiddenBlock hidden relu
  show max ((matmul dot_S2000x128_S128x256_S2000x256_1_0_0_1_n_n none r1
        (shapeCast S128x256 x11 shapeCasts_S128x256_S128x256 : FVec Ideal S128x256 .bf16)
        (constant S2000x256 .f32 0x00000000#32) (ix2 p l)
      + matmul dot_S2000x128_S128x256_S2000x256_1_0_0_1_n_n none (truncf .bf16 r2 bitsLt_bf16_f32)
        (shapeCast S128x256 x12 shapeCasts_S128x256_S128x256 : FVec Ideal S128x256 .bf16)
        (constant S2000x256 .f32 0x00000000#32) (ix2 p l))
      + broadcastTo S2000x256 (shapeCast S1x256 x13 shapeCasts_S1x256_S1x256) broadcasts_S1x256_S2000x256 (ix2 p l)) _ = _
  refine congrArg (max · _) (congrArg₂ (· + ·) (congrArg₂ (· + ·) ?_ ?_) ?_)
  · refine (Cert.PlainMatmul.matmul_zero_apply dot_S2000x128_S128x256_S2000x256_1_0_0_1_n_n.wf none _ _ p l).trans ?_
    refine Finset.sum_congr rfl fun k _ => congrArg (r1 (ix2 p k) * ·) ?_
    rw [shapeCast_self]; exact hT k l
  · refine (Cert.PlainMatmul.matmul_zero_apply dot_S2000x128_S128x256_S2000x256_1_0_0_1_n_n.wf none _ _ p l).trans ?_
    refine Finset.sum_congr rfl fun k _ => congrArg₂ (· * ·) rfl ?_
    rw [shapeCast_self]; exact hB k l
  · refine (broadcastTo_1b_ab_apply _ broadcasts_S1x256_S2000x256 p l).trans ?_
    rw [shapeCast_self]; exact hb l

/-- The merge network's output block from the two branch blocks. -/
theorem merge_apply (P : Params) (r2 : FVec Ideal S2000x128 .f32) (r1 : FVec Ideal S2000x128 .bf16)
    (x11 x12 : Vec Ideal S128x256 .bf16) (x13 : Vec Ideal S1x256 .f32) (x14 : Vec Ideal S256x128 .bf16) (x15 : Vec Ideal S1x128 .f32)
    (hT : ∀ (k : Fin 128) (l : Fin 256), x11 (ix2 k l) = P.Wl1 l (Fin.castAdd 128 k))
    (hB : ∀ (k : Fin 128) (l : Fin 256), x12 (ix2 k l) = P.Wl1 l (Fin.natAdd 128 k))
    (hb1 : ∀ l : Fin 256, x13 (ix2 (0 : Fin 1) l) = P.bl1 l)
    (hW2 : ∀ (l : Fin 256) (j : Fin 128), x14 (ix2 l j) = P.Wl2 j l)
    (hb2 : ∀ j : Fin 128, x15 (ix2 (0 : Fin 1) j) = P.bl2 j) (p : Fin 2000) (q : Fin 128) :
    k0_pay1 r2 r1 x11 x12 x13 x14 x15 (ix2 p q)
      = relu (affine (hidden P (fun k => r1 (ix2 p k)) (fun k => r2 (ix2 p k))) P.Wl2 P.bl2 q) := by
  have e : k0_pay1 r2 r1 x11 x12 x13 x14 x15
      = maximumf (addf (matmul dot_S2000x256_S256x128_S2000x128_1_0_0_1_n_n none
            (truncf .bf16 (hiddenBlock r2 r1 x11 x12 x13) bitsLt_bf16_f32) (shapeCast S256x128 x14 shapeCasts_S256x128_S256x128 : FVec Ideal S256x128 .bf16)
            (constant S2000x128 .f32 0x00000000#32))
          (broadcastTo S2000x128 (shapeCast S1x128 x15 shapeCasts_S1x128_S1x128) broadcasts_S1x128_S2000x128))
        (broadcast S2000x128 (Scalar.ofBits .f32 0x00000000#32)) := rfl
  rw [e]
  unfold relu affine
  show max (matmul dot_S2000x256_S256x128_S2000x128_1_0_0_1_n_n none
          (truncf .bf16 (hiddenBlock r2 r1 x11 x12 x13) bitsLt_bf16_f32) (shapeCast S256x128 x14 shapeCasts_S256x128_S256x128 : FVec Ideal S256x128 .bf16)
          (constant S2000x128 .f32 0x00000000#32) (ix2 p q)
        + broadcastTo S2000x128 (shapeCast S1x128 x15 shapeCasts_S1x128_S1x128) broadcasts_S1x128_S2000x128 (ix2 p q)) _ = _
  refine congrArg (max · _) (congrArg₂ (· + ·) ?_ ?_)
  · refine (Cert.PlainMatmul.matmul_zero_apply dot_S2000x256_S256x128_S2000x128_1_0_0_1_n_n.wf none _ _ p q).trans ?_
    refine Finset.sum_congr rfl fun l _ => congrArg₂ (· * ·) ?_ ?_
    · exact hiddenBlock_apply P r2 r1 x11 x12 x13 hT hB hb1 p l
    · rw [shapeCast_self]; exact hW2 l q
  · refine (broadcastTo_1b_ab_apply _ broadcasts_S1x128_S2000x128 p q).trans ?_
    rw [shapeCast_self]; exact hb2 q

/-- The body's stored block at (p, q) is the layer's row for the node in the block's row p, at q. -/
theorem payload_apply (P : Params) (x0 x1 x2 : Vec Ideal S2000x128 .f32) (x3 : Vec Ideal S128x128 .bf16)
    (x4 x5 x6 : Vec Ideal S1x128 .f32) (x7 : Vec Ideal S128x128 .bf16) (x8 x9 x10 : Vec Ideal S1x128 .f32)
    (x11 x12 : Vec Ideal S128x256 .bf16) (x13 : Vec Ideal S1x256 .f32) (x14 : Vec Ideal S256x128 .bf16) (x15 : Vec Ideal S1x128 .f32)
    (h3 : ∀ (k j : Fin 128), x3 (ix2 k j) = P.W1 j k) (h4 : ∀ j : Fin 128, x4 (ix2 (0 : Fin 1) j) = P.b1 j)
    (h5 : ∀ j : Fin 128, x5 (ix2 (0 : Fin 1) j) = P.g1 j) (h6 : ∀ j : Fin 128, x6 (ix2 (0 : Fin 1) j) = P.bt1 j)
    (h7 : ∀ (k j : Fin 128), x7 (ix2 k j) = P.W2 j k) (h8 : ∀ j : Fin 128, x8 (ix2 (0 : Fin 1) j) = P.b2 j)
    (h9 : ∀ j : Fin 128, x9 (ix2 (0 : Fin 1) j) = P.g2 j) (h10 : ∀ j : Fin 128, x10 (ix2 (0 : Fin 1) j) = P.bt2 j)
    (h11 : ∀ (k : Fin 128) (l : Fin 256), x11 (ix2 k l) = P.Wl1 l (Fin.castAdd 128 k))
    (h12 : ∀ (k : Fin 128) (l : Fin 256), x12 (ix2 k l) = P.Wl1 l (Fin.natAdd 128 k))
    (h13 : ∀ l : Fin 256, x13 (ix2 (0 : Fin 1) l) = P.bl1 l)
    (h14 : ∀ (l : Fin 256) (j : Fin 128), x14 (ix2 l j) = P.Wl2 j l)
    (h15 : ∀ j : Fin 128, x15 (ix2 (0 : Fin 1) j) = P.bl2 j) (p : Fin 2000) (q : Fin 128) :
    k0_pay1 (k0_pay6 x0 (k0_pay2 x2) x7 x8 x9 x10) (k0_pay7 (k0_pay3 x0 x1) (k0_pay4 x0 x1 x3 x4 x5) (k0_pay5 x6))
        x11 x12 x13 x14 x15 (ix2 p q)
      = rowOut P (fun k => x0 (ix2 p k)) (fun k => x1 (ix2 p k)) (fun k => x2 (ix2 p k)) q := by
  refine (merge_apply P _ _ x11 x12 x13 x14 x15 h11 h12 h13 h14 h15 p q).trans ?_
  unfold rowOut
  refine congrArg (fun r => relu (affine r P.Wl2 P.bl2 q)) ?_
  refine congrArg₂ (hidden P) (funext fun k => ?_) (funext fun k => ?_)
  · exact branch1_apply x0 x1 x3 x4 x5 x6 P.W1 P.b1 P.g1 P.bt1 h3 h4 h5 h6 p k
  · refine (branch2_apply x0 (k0_pay2 x2) x7 x8 x9 x10 P.W2 P.b2 P.g2 P.bt2 h7 h8 h9 h10 p k).trans ?_
    refine congrArg (fun a => branch (fun k => x0 (ix2 p k)) a P.W2 P.b2 P.g2 P.bt2 k) (funext fun k' => ?_)
    unfold k0_pay2
    rw [shapeCast_self]

end Cert.GinRow.Payload

end
-- ==== Proof.GinWindows.lean ====
/-
  What the kernel's windows hold when the region is entered, as functions of the program's arguments.

  The two neighbourhood-sum arrays are the host's gather and scatter-add of the features along the edge list, one per edge
  direction: the same operations, on the same arguments, as the reference program's, so they are named by the reference's
  terms and never opened.  Each weight matrix is handed over transposed (and cut in two after the transposition for the
  first merge weight), each bias or gain vector as one row; read at an entry these are the argument's own entries:
  (k, j) of a transposed matrix is the matrix's (j, k); row k of the lower half of the transposed merge weight is its row
  128 + k; (0, j) of a one-row array is the vector's entry j.  A change of float format is the identity on the extended reals.
-/
import proofs.«104561_j60120952209623_2_alg».proof.Proof.Gen.KernelIdeal.Frame
import proofs.«104561_j60120952209623_2_alg».proof.Proof.Gen.ReferenceIdeal.Read
import proofs.«104561_j60120952209623_2_alg».proof.Proof.GinRow
import Idealize.ShloMosaic.Lib.StableHlo.Run
import Idealize.ShloMosaic.Lib.ValueLayout

noncomputable section

namespace Cert.GinRow.Windows

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The layer's weights read off the kernel program's argument arrays. -/
def params (c : Dev nD) : Params :=
  paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

set_option maxHeartbeats 8000000 in
/-- The first direction's neighbourhood sums at region entry are the reference's, of the same arguments. -/
theorem agg1_eq (c : Dev nD) : (V m c main_v13 : S100000x128.Idx → EReal)
    = Cert.ReferenceIdeal.Read.val_main_v13 (F := Ideal) (m ((c : Thread nD τ).loc main_arg0)) (m ((c : Thread nD τ).loc main_arg1)) := by
  dsimp only [Gen.V, Gen.hostOps0]
  after_results
  rfl

set_option maxHeartbeats 8000000 in
/-- The second direction's neighbourhood sums at region entry are the reference's, of the same arguments. -/
theorem agg2_eq (c : Dev nD) : (V m c main_v23 : S100000x128.Idx → EReal)
    = Cert.ReferenceIdeal.Read.val_main_v55 (F := Ideal) (m ((c : Thread nD τ).loc main_arg0)) (m ((c : Thread nD τ).loc main_arg1)) := by
  dsimp only [Gen.V, Gen.hostOps0]
  after_results
  rfl

set_option maxHeartbeats 8000000 in
/-- The transposed first-branch weight. -/
theorem w1t_eq (c : Dev nD) : (V m c main_v25 : S128x128.Idx → EReal)
    = truncf .bf16 (transpose S128x128 [1, 0] (m ((c : Thread nD τ).loc main_arg2)) transposes_S128x128_S128x128_1_0 : FVec Ideal S128x128 .f32) bitsLt_bf16_f32 := by
  dsimp only [Gen.V, Gen.hostOps0]
  after_results

set_option maxHeartbeats 8000000 in
/-- The transposed second-branch weight. -/
theorem w2t_eq (c : Dev nD) : (V m c main_v27 : S128x128.Idx → EReal)
    = truncf .bf16 (transpose S128x128 [1, 0] (m ((c : Thread nD τ).loc main_arg6)) transposes_S128x128_S128x128_1_0 : FVec Ideal S128x128 .f32) bitsLt_bf16_f32 := by
  dsimp only [Gen.V, Gen.hostOps0]
  after_results

set_option maxHeartbeats 8000000 in
/-- The upper half of the transposed first merge weight. -/
theorem top_eq (c : Dev nD) : (V m c main_v30 : S128x256.Idx → EReal)
    = truncf .bf16 (extractStridedSlice S128x256 ![0, 0]
        (transpose S256x256 [1, 0] (m ((c : Thread nD τ).loc main_arg10)) transposes_S256x256_S256x256_1_0 : FVec Ideal S256x256 .f32)
        slices_S256x256_S128x256_0_0 : FVec Ideal S128x256 .f32) bitsLt_bf16_f32 := by
  dsimp only [Gen.V, Gen.hostOps0]
  after_results

set_option maxHeartbeats 8000000 in
/-- The lower half of the transposed first merge weight. -/
theorem bot_eq (c : Dev nD) : (V m c main_v32 : S128x256.Idx → EReal)
    = truncf .bf16 (extractStridedSlice S128x256 ![128, 0]
        (transpose S256x256 [1, 0] (m ((c : Thread nD τ).loc main_arg10)) transposes_S256x256_S256x256_1_0 : FVec Ideal S256x256 .f32)
        slices_S256x256_S128x256_128_0 : FVec Ideal S128x256 .f32) bitsLt_bf16_f32 := by
  dsimp only [Gen.V, Gen.hostOps0]
  after_results

set_option maxHeartbeats 8000000 in
/-- The transposed second merge weight. -/
theorem wl2t_eq (c : Dev nD) : (V m c main_v34 : S256x128.Idx → EReal)
    = truncf .bf16 (transpose S256x128 [1, 0] (m ((c : Thread nD τ).loc main_arg12)) transposes_S128x256_S256x128_1_0 : FVec Ideal S256x128 .f32) bitsLt_bf16_f32 := by
  dsimp only [Gen.V, Gen.hostOps0]
  after_results

set_option maxHeartbeats 16000000 in
/-- The bias, gain and shift vectors, each as one row. -/
theorem rows_eq (c : Dev nD) :
    (V m c main_v35 : S1x128.Idx → EReal) = shapeCast S1x128 (m ((c : Thread nD τ).loc main_arg3)) shapeCasts_S128_S1x128
    ∧ (V m c main_v36 : S1x128.Idx → EReal) = shapeCast S1x128 (m ((c : Thread nD τ).loc main_arg4)) shapeCasts_S128_S1x128
    ∧ (V m c main_v37 : S1x128.Idx → EReal) = shapeCast S1x128 (m ((c : Thread nD τ).loc main_arg5)) shapeCasts_S128_S1x128
    ∧ (V m c main_v38 : S1x128.Idx → EReal) = shapeCast S1x128 (m ((c : Thread nD τ).loc main_arg7)) shapeCasts_S128_S1x128
    ∧ (V m c main_v39 : S1x128.Idx → EReal) = shapeCast S1x128 (m ((c : Thread nD τ).loc main_arg8)) shapeCasts_S128_S1x128
    ∧ (V m c main_v40 : S1x128.Idx → EReal) = shapeCast S1x128 (m ((c : Thread nD τ).loc main_arg9)) shapeCasts_S128_S1x128
    ∧ (V m c main_v41 : S1x256.Idx → EReal) = shapeCast S1x256 (m ((c : Thread nD τ).loc main_arg11)) shapeCasts_S256_S1x256
    ∧ (V m c main_v42 : S1x128.Idx → EReal) = shapeCast S1x128 (m ((c : Thread nD τ).loc main_arg13)) shapeCasts_S128_S1x128 := by
  dsimp only [Gen.V, Gen.hostOps0]
  refine ⟨?_, ?_, ?_, ?_, ?_, ?_, ?_, ?_⟩ <;> (after_results; rfl)

/-! ## The same, read at an entry -/

theorem w1t_apply (c : Dev nD) (k j : Fin 128) :
    (V m c main_v25 : S128x128.Idx → EReal) (ix2 k j) = (params m c).W1 j k :=
  (congrFun (w1t_eq m c) (ix2 k j)).trans (transpose_ix2_apply (m ((c : Thread nD τ).loc main_arg2)) transposes_S128x128_S128x128_1_0 k j)

theorem w2t_apply (c : Dev nD) (k j : Fin 128) :
    (V m c main_v27 : S128x128.Idx → EReal) (ix2 k j) = (params m c).W2 j k :=
  (congrFun (w2t_eq m c) (ix2 k j)).trans (transpose_ix2_apply (m ((c : Thread nD τ).loc main_arg6)) transposes_S128x128_S128x128_1_0 k j)

theorem top_apply (c : Dev nD) (k : Fin 128) (l : Fin 256) :
    (V m c main_v30 : S128x256.Idx → EReal) (ix2 k l) = (params m c).Wl1 l (Fin.castAdd 128 k) :=
  (congrFun (top_eq m c) (ix2 k l)).trans
    ((slice2_axis0_apply 0 _ slices_S256x256_S128x256_0_0 k l (Fin.castAdd 128 k) (Nat.zero_add _).symm).trans
      (transpose_ix2_apply (m ((c : Thread nD τ).loc main_arg10)) transposes_S256x256_S256x256_1_0 (Fin.castAdd 128 k) l))

theorem bot_apply (c : Dev nD) (k : Fin 128) (l : Fin 256) :
    (V m c main_v32 : S128x256.Idx → EReal) (ix2 k l) = (params m c).Wl1 l (Fin.natAdd 128 k) :=
  (congrFun (bot_eq m c) (ix2 k l)).trans
    ((slice2_axis0_apply 128 _ slices_S256x256_S128x256_128_0 k l (Fin.natAdd 128 k) rfl).trans
      (transpose_ix2_apply (m ((c : Thread nD τ).loc main_arg10)) transposes_S256x256_S256x256_1_0 (Fin.natAdd 128 k) l))

theorem wl2t_apply (c : Dev nD) (l : Fin 256) (j : Fin 128) :
    (V m c main_v34 : S256x128.Idx → EReal) (ix2 l j) = (params m c).Wl2 j l :=
  (congrFun (wl2t_eq m c) (ix2 l j)).trans (transpose_ix2_apply (m ((c : Thread nD τ).loc main_arg12)) transposes_S128x256_S256x128_1_0 l j)

theorem b1_apply (c : Dev nD) (j : Fin 128) : (V m c main_v35 : S1x128.Idx → EReal) (ix2 (0 : Fin 1) j) = (params m c).b1 j :=
  (congrFun (rows_eq m c).1 (ix2 (0 : Fin 1) j)).trans (shapeCast_a_1a_apply (m ((c : Thread nD τ).loc main_arg3)) shapeCasts_S128_S1x128 0 j)

theorem g1_apply (c : Dev nD) (j : Fin 128) : (V m c main_v36 : S1x128.Idx → EReal) (ix2 (0 : Fin 1) j) = (params m c).g1 j :=
  (congrFun (rows_eq m c).2.1 (ix2 (0 : Fin 1) j)).trans (shapeCast_a_1a_apply (m ((c : Thread nD τ).loc main_arg4)) shapeCasts_S128_S1x128 0 j)

theorem bt1_apply (c : Dev nD) (j : Fin 128) : (V m c main_v37 : S1x128.Idx → EReal) (ix2 (0 : Fin 1) j) = (params m c).bt1 j :=
  (congrFun (rows_eq m c).2.2.1 (ix2 (0 : Fin 1) j)).trans (shapeCast_a_1a_apply (m ((c : Thread nD τ).loc main_arg5)) shapeCasts_S128_S1x128 0 j)

theorem b2_apply (c : Dev nD) (j : Fin 128) : (V m c main_v38 : S1x128.Idx → EReal) (ix2 (0 : Fin 1) j) = (params m c).b2 j :=
  (congrFun (rows_eq m c).2.2.2.1 (ix2 (0 : Fin 1) j)).trans (shapeCast_a_1a_apply (m ((c : Thread nD τ).loc main_arg7)) shapeCasts_S128_S1x128 0 j)

theorem g2_apply (c : Dev nD) (j : Fin 128) : (V m c main_v39 : S1x128.Idx → EReal) (ix2 (0 : Fin 1) j) = (params m c).g2 j :=
  (congrFun (rows_eq m c).2.2.2.2.1 (ix2 (0 : Fin 1) j)).trans (shapeCast_a_1a_apply (m ((c : Thread nD τ).loc main_arg8)) shapeCasts_S128_S1x128 0 j)

theorem bt2_apply (c : Dev nD) (j : Fin 128) : (V m c main_v40 : S1x128.Idx → EReal) (ix2 (0 : Fin 1) j) = (params m c).bt2 j :=
  (congrFun (rows_eq m c).2.2.2.2.2.1 (ix2 (0 : Fin 1) j)).trans (shapeCast_a_1a_apply (m ((c : Thread nD τ).loc main_arg9)) shapeCasts_S128_S1x128 0 j)

theorem bl1_apply (c : Dev nD) (l : Fin 256) : (V m c main_v41 : S1x256.Idx → EReal) (ix2 (0 : Fin 1) l) = (params m c).bl1 l :=
  (congrFun (rows_eq m c).2.2.2.2.2.2.1 (ix2 (0 : Fin 1) l)).trans (shapeCast_a_1a_apply (m ((c : Thread nD τ).loc main_arg11)) shapeCasts_S256_S1x256 0 l)

theorem bl2_apply (c : Dev nD) (j : Fin 128) : (V m c main_v42 : S1x128.Idx → EReal) (ix2 (0 : Fin 1) j) = (params m c).bl2 j :=
  (congrFun (rows_eq m c).2.2.2.2.2.2.2 (ix2 (0 : Fin 1) j)).trans (shapeCast_a_1a_apply (m ((c : Thread nD τ).loc main_arg13)) shapeCasts_S128_S1x128 0 j)

end Cert.GinRow.Windows

end
-- ==== Proof.GinPlace.lean ====
/-
  Where the blocks sit.  The grid has 50 points; at point t the three row-blocked inputs and the result stage rows
  2000·t … 2000·t + 1999 of their arrays (block (t, 0) of blocks of 2000 rows), and every weight array is staged whole
  (block (0, 0)).  So row p of point t's block of the features is the feature row of node 2000·t + p, and likewise for the
  two neighbourhood-sum arrays, while each weight block read at an entry is the weight array's own entry there.
-/
import proofs.«104561_j60120952209623_2_alg».proof.Proof.Gen.KernelIdeal.Frame
import proofs.«104561_j60120952209623_2_alg».proof.Proof.GinWindows

set_option maxRecDepth 16384

noncomputable section

namespace Cert.GinRow.Place

open Cert.KernelIdeal Cert.KernelIdeal.Gen Idealize.ShloMosaic Idealize.ShloMosaic.TcCoe Idealize.SL.Sem
open Idealize.ShloMosaic.ValueIdx
open Idealize.ShloMosaic.Pipeline (Dat)
open Cert.GinRow.Windows

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows sit at block (t, 0), the weight windows at (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_16.index t (0 : Fin 2) = t.val ∧ win0_16.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

theorem lt50 (t : Fin cfg0.N) : t.val < 50 := lt_of_lt_of_eq t.isLt N_0

/-- The node that row p of point t's block belongs to. -/
def node (t : Fin cfg0.N) (p : Fin 2000) : Fin 100000 := ⟨t.val * 2000 + p.val, by have := lt50 t; have := p.isLt; omega⟩

/-! ## Where a block's entry sits in its array -/

theorem emb0 (t : Fin cfg0.N) (p : Fin 2000) (q : Fin 128) : ((cfg0.win 0).blk t).view.emb (ix2 p q) = ix2 (node t p) q := by
  obtain ⟨⟨e0, e1⟩, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * q.val = q.val; omega

theorem emb1 (t : Fin cfg0.N) (p : Fin 2000) (q : Fin 128) : ((cfg0.win 1).blk t).view.emb (ix2 p q) = ix2 (node t p) q := by
  obtain ⟨-, ⟨e0, e1⟩, -⟩ := idx_facts t
  funext a; apply Fin.ext
  match a with
  | ⟨0, _⟩ => show win0_1.index t (0 : Fin 2) * 2000 + 1 * p.val = t.val * 2000 + p.val; omega
  | ⟨1, _⟩ => show win0_1.index t (1 : Fin 2) * 128 + 1 * q.val = q.val; omega

theorem emb2 (t : Fin cfg0.N) (p : Fin 2000) (q : Fin 128) : ((cfg0.win 2).blk t).view.emb (ix2 p q) = ix2 (node t p) q := by
  obtain ⟨-, -, ⟨e0, e1⟩, -⟩ := idx_facts t
  funext a; apply Fin.ext
  match a with
  | ⟨0, _⟩ => show win0_2.index t (0 : Fin 2) * 2000 + 1 * p.val = t.val * 2000 + p.val; omega
  | ⟨1, _⟩ => show win0_2.index t (1 : Fin 2) * 128 + 1 * q.val = q.val; omega

theorem emb16 (t : Fin cfg0.N) (p : Fin 2000) (q : Fin 128) : ((cfg0.win 16).blk t).view.emb (ix2 p q) = ix2 (node t p) q := by
  obtain ⟨-, -, -, ⟨e0, e1⟩, -⟩ := idx_facts t
  funext a; apply Fin.ext
  match a with
  | ⟨0, _⟩ => show win0_16.index t (0 : Fin 2) * 2000 + 1 * p.val = t.val * 2000 + p.val; omega
  | ⟨1, _⟩ => show win0_16.index t (1 : Fin 2) * 128 + 1 * q.val = q.val; omega

theorem emb3 (t : Fin cfg0.N) (a : Fin 128) (b : Fin 128) : ((cfg0.win 3).blk t).view.emb (ix2 a b) = ix2 a b := by
  obtain ⟨-, -, -, -, ⟨e0, e1⟩, -⟩ := idx_facts t
  funext d; apply Fin.ext
  match d with
  | ⟨0, _⟩ => show win0_3.index t (0 : Fin 2) * 128 + 1 * a.val = a.val; omega
  | ⟨1, _⟩ => show win0_3.index t (1 : Fin 2) * 128 + 1 * b.val = b.val; omega

theorem emb4 (t : Fin cfg0.N) (a : Fin 1) (b : Fin 128) : ((cfg0.win 4).blk t).view.emb (ix2 a b) = ix2 a b := by
  obtain ⟨-, -, -, -, -, ⟨e0, e1⟩, -⟩ := idx_facts t
  funext d; apply Fin.ext
  match d with
  | ⟨0, _⟩ => show win0_4.index t (0 : Fin 2) * 1 + 1 * a.val = a.val; omega
  | ⟨1, _⟩ => show win0_4.index t (1 : Fin 2) * 128 + 1 * b.val = b.val; omega

theorem emb5 (t : Fin cfg0.N) (a : Fin 1) (b : Fin 128) : ((cfg0.win 5).blk t).view.emb (ix2 a b) = ix2 a b := by
  obtain ⟨-, -, -, -, -, -, ⟨e0, e1⟩, -⟩ := idx_facts t
  funext d; apply Fin.ext
  match d with
  | ⟨0, _⟩ => show win0_5.index t (0 : Fin 2) * 1 + 1 * a.val = a.val; omega
  | ⟨1, _⟩ => show win0_5.index t (1 : Fin 2) * 128 + 1 * b.val = b.val; omega

theorem emb6 (t : Fin cfg0.N) (a : Fin 1) (b : Fin 128) : ((cfg0.win 6).blk t).view.emb (ix2 a b) = ix2 a b := by
  obtain ⟨-, -, -, -, -, -, -, ⟨e0, e1⟩, -⟩ := idx_facts t
  funext d; apply Fin.ext
  match d with
  | ⟨0, _⟩ => show win0_6.index t (0 : Fin 2) * 1 + 1 * a.val = a.val; omega
  | ⟨1, _⟩ => show win0_6.index t (1 : Fin 2) * 128 + 1 * b.val = b.val; omega

theorem emb7 (t : Fin cfg0.N) (a : Fin 128) (b : Fin 128) : ((cfg0.win 7).blk t).view.emb (ix2 a b) = ix2 a b := by
  obtain ⟨-, -, -, -, -, -, -, -, ⟨e0, e1⟩, -⟩ := idx_facts t
  funext d; apply Fin.ext
  match d with
  | ⟨0, _⟩ => show win0_7.index t (0 : Fin 2) * 128 + 1 * a.val = a.val; omega
  | ⟨1, _⟩ => show win0_7.index t (1 : Fin 2) * 128 + 1 * b.val = b.val; omega

theorem emb8 (t : Fin cfg0.N) (a : Fin 1) (b : Fin 128) : ((cfg0.win 8).blk t).view.emb (ix2 a b) = ix2 a b := by
  obtain ⟨-, -, -, -, -, -, -, -, -, ⟨e0, e1⟩, -⟩ := idx_facts t
  funext d; apply Fin.ext
  match d with
  | ⟨0, _⟩ => show win0_8.index t (0 : Fin 2) * 1 + 1 * a.val = a.val; omega
  | ⟨1, _⟩ => show win0_8.index t (1 : Fin 2) * 128 + 1 * b.val = b.val; omega

theorem emb9 (t : Fin cfg0.N) (a : Fin 1) (b : Fin 128) : ((cfg0.win 9).blk t).view.emb (ix2 a b) = ix2 a b := by
  obtain ⟨-, -, -, -, -, -, -, -, -, -, ⟨e0, e1⟩, -⟩ := idx_facts t
  funext d; apply Fin.ext
  match d with
  | ⟨0, _⟩ => show win0_9.index t (0 : Fin 2) * 1 + 1 * a.val = a.val; omega
  | ⟨1, _⟩ => show win0_9.index t (1 : Fin 2) * 128 + 1 * b.val = b.val; omega

theorem emb10 (t : Fin cfg0.N) (a : Fin 1) (b : Fin 128) : ((cfg0.win 10).blk t).view.emb (ix2 a b) = ix2 a b := by
  obtain ⟨-, -, -, -, -, -, -, -, -, -, -, ⟨e0, e1⟩, -⟩ := idx_facts t
  funext d; apply Fin.ext
  match d with
  | ⟨0, _⟩ => show win0_10.index t (0 : Fin 2) * 1 + 1 * a.val = a.val; omega
  | ⟨1, _⟩ => show win0_10.index t (1 : Fin 2) * 128 + 1 * b.val = b.val; omega

theorem emb11 (t : Fin cfg0.N) (a : Fin 128) (b : Fin 256) : ((cfg0.win 11).blk t).view.emb (ix2 a b) = ix2 a b := by
  obtain ⟨-, -, -, -, -, -, -, -, -, -, -, -, ⟨e0, e1⟩, -⟩ := idx_facts t
  funext d; apply Fin.ext
  match d with
  | ⟨0, _⟩ => show win0_11.index t (0 : Fin 2) * 128 + 1 * a.val = a.val; omega
  | ⟨1, _⟩ => show win0_11.index t (1 : Fin 2) * 256 + 1 * b.val = b.val; omega

theorem emb12 (t : Fin cfg0.N) (a : Fin 128) (b : Fin 256) : ((cfg0.win 12).blk t).view.emb (ix2 a b) = ix2 a b := by
  obtain ⟨-, -, -, -, -, -, -, -, -, -, -, -, -, ⟨e0, e1⟩, -⟩ := idx_facts t
  funext d; apply Fin.ext
  match d with
  | ⟨0, _⟩ => show win0_12.index t (0 : Fin 2) * 128 + 1 * a.val = a.val; omega
  | ⟨1, _⟩ => show win0_12.index t (1 : Fin 2) * 256 + 1 * b.val = b.val; omega

theorem emb13 (t : Fin cfg0.N) (a : Fin 1) (b : Fin 256) : ((cfg0.win 13).blk t).view.emb (ix2 a b) = ix2 a b := by
  obtain ⟨-, -, -, -, -, -, -, -, -, -, -, -, -, -, ⟨e0, e1⟩, -⟩ := idx_facts t
  funext d; apply Fin.ext
  match d with
  | ⟨0, _⟩ => show win0_13.index t (0 : Fin 2) * 1 + 1 * a.val = a.val; omega
  | ⟨1, _⟩ => show win0_13.index t (1 : Fin 2) * 256 + 1 * b.val = b.val; omega

theorem emb14 (t : Fin cfg0.N) (a : Fin 256) (b : Fin 128) : ((cfg0.win 14).blk t).view.emb (ix2 a b) = ix2 a b := by
  obtain ⟨-, -, -, -, -, -, -, -, -, -, -, -, -, -, -, ⟨e0, e1⟩, -⟩ := idx_facts t
  funext d; apply Fin.ext
  match d with
  | ⟨0, _⟩ => show win0_14.index t (0 : Fin 2) * 256 + 1 * a.val = a.val; omega
  | ⟨1, _⟩ => show win0_14.index t (1 : Fin 2) * 128 + 1 * b.val = b.val; omega

theorem emb15 (t : Fin cfg0.N) (a : Fin 1) (b : Fin 128) : ((cfg0.win 15).blk t).view.emb (ix2 a b) = ix2 a b := by
  obtain ⟨-, -, -, -, -, -, -, -, -, -, -, -, -, -, -, -, ⟨e0, e1⟩⟩ := idx_facts t
  funext d; apply Fin.ext
  match d with
  | ⟨0, _⟩ => show win0_15.index t (0 : Fin 2) * 1 + 1 * a.val = a.val; omega
  | ⟨1, _⟩ => show win0_15.index t (1 : Fin 2) * 128 + 1 * b.val = b.val; omega

/-! ## The blocks at a point, read at an entry

  A window's block at a point is its array read through the block's rectangle: the block's entry at y is the array's
  entry at the block's offset plus y.  (The read also passes between two spellings of one element type; on values it is
  the identity.)  For the three row-blocked inputs this is row 2000·t + p of the array; a weight window's block is its
  whole array, whose entries were read off the program's arguments before. -/

theorem x_blk (c : Dev nD) (t : Fin cfg0.N) (p : Fin 2000) (k : Fin 128) :
    iblk m c 0 t (ix2 p k) = V m c (Pipeline.arrRef spec0 0) (ix2 (node t p) k) := by
  unfold iblk
  generalize V m c (Pipeline.arrRef spec0 0) = X
  rw [View.read_apply, cast_eq, emb0]

theorem a1_blk (c : Dev nD) (t : Fin cfg0.N) (p : Fin 2000) (k : Fin 128) :
    iblk m c 1 t (ix2 p k) = V m c (Pipeline.arrRef spec0 1) (ix2 (node t p) k) := by
  unfold iblk
  generalize V m c (Pipeline.arrRef spec0 1) = X
  rw [View.read_apply, cast_eq, emb1]

theorem a2_blk (c : Dev nD) (t : Fin cfg0.N) (p : Fin 2000) (k : Fin 128) :
    iblk m c 2 t (ix2 p k) = V m c (Pipeline.arrRef spec0 2) (ix2 (node t p) k) := by
  unfold iblk
  generalize V m c (Pipeline.arrRef spec0 2) = X
  rw [View.read_apply, cast_eq, emb2]

theorem w1t_blk (c : Dev nD) (t : Fin cfg0.N) (k j : Fin 128) : iblk m c 3 t (ix2 k j) = (params m c).W1 j k := by
  have h : iblk m c 3 t (ix2 k j) = V m c (Pipeline.arrRef spec0 3) (ix2 k j) := by
    unfold iblk
    generalize V m c (Pipeline.arrRef spec0 3) = X
    rw [View.read_apply, cast_eq, emb3]
  exact h.trans (w1t_apply m c k j)

theorem b1_blk (c : Dev nD) (t : Fin cfg0.N) (j : Fin 128) : iblk m c 4 t (ix2 (0 : Fin 1) j) = (params m c).b1 j := by
  have h : iblk m c 4 t (ix2 (0 : Fin 1) j) = V m c (Pipeline.arrRef spec0 4) (ix2 (0 : Fin 1) j) := by
    unfold iblk
    generalize V m c (Pipeline.arrRef spec0 4) = X
    rw [View.read_apply, cast_eq, emb4]
  exact h.trans (b1_apply m c j)

theorem g1_blk (c : Dev nD) (t : Fin cfg0.N) (j : Fin 128) : iblk m c 5 t (ix2 (0 : Fin 1) j) = (params m c).g1 j := by
  have h : iblk m c 5 t (ix2 (0 : Fin 1) j) = V m c (Pipeline.arrRef spec0 5) (ix2 (0 : Fin 1) j) := by
    unfold iblk
    generalize V m c (Pipeline.arrRef spec0 5) = X
    rw [View.read_apply, cast_eq, emb5]
  exact h.trans (g1_apply m c j)

theorem bt1_blk (c : Dev nD) (t : Fin cfg0.N) (j : Fin 128) : iblk m c 6 t (ix2 (0 : Fin 1) j) = (params m c).bt1 j := by
  have h : iblk m c 6 t (ix2 (0 : Fin 1) j) = V m c (Pipeline.arrRef spec0 6) (ix2 (0 : Fin 1) j) := by
    unfold iblk
    generalize V m c (Pipeline.arrRef spec0 6) = X
    rw [View.read_apply, cast_eq, emb6]
  exact h.trans (bt1_apply m c j)

theorem w2t_blk (c : Dev nD) (t : Fin cfg0.N) (k j : Fin 128) : iblk m c 7 t (ix2 k j) = (params m c).W2 j k := by
  have h : iblk m c 7 t (ix2 k j) = V m c (Pipeline.arrRef spec0 7) (ix2 k j) := by
    unfold iblk
    generalize V m c (Pipeline.arrRef spec0 7) = X
    rw [View.read_apply, cast_eq, emb7]
  exact h.trans (w2t_apply m c k j)

theorem b2_blk (c : Dev nD) (t : Fin cfg0.N) (j : Fin 128) : iblk m c 8 t (ix2 (0 : Fin 1) j) = (params m c).b2 j := by
  have h : iblk m c 8 t (ix2 (0 : Fin 1) j) = V m c (Pipeline.arrRef spec0 8) (ix2 (0 : Fin 1) j) := by
    unfold iblk
    generalize V m c (Pipeline.arrRef spec0 8) = X
    rw [View.read_apply, cast_eq, emb8]
  exact h.trans (b2_apply m c j)

theorem g2_blk (c : Dev nD) (t : Fin cfg0.N) (j : Fin 128) : iblk m c 9 t (ix2 (0 : Fin 1) j) = (params m c).g2 j := by
  have h : iblk m c 9 t (ix2 (0 : Fin 1) j) = V m c (Pipeline.arrRef spec0 9) (ix2 (0 : Fin 1) j) := by
    unfold iblk
    generalize V m c (Pipeline.arrRef spec0 9) = X
    rw [View.read_apply, cast_eq, emb9]
  exact h.trans (g2_apply m c j)

theorem bt2_blk (c : Dev nD) (t : Fin cfg0.N) (j : Fin 128) : iblk m c 10 t (ix2 (0 : Fin 1) j) = (params m c).bt2 j := by
  have h : iblk m c 10 t (ix2 (0 : Fin 1) j) = V m c (Pipeline.arrRef spec0 10) (ix2 (0 : Fin 1) j) := by
    unfold iblk
    generalize V m c (Pipeline.arrRef spec0 10) = X
    rw [View.read_apply, cast_eq, emb10]
  exact h.trans (bt2_apply m c j)

theorem top_blk (c : Dev nD) (t : Fin cfg0.N) (k : Fin 128) (l : Fin 256) : iblk m c 11 t (ix2 k l) = (params m c).Wl1 l (Fin.castAdd 128 k) := by
  have h : iblk m c 11 t (ix2 k l) = V m c (Pipeline.arrRef spec0 11) (ix2 k l) := by
    unfold iblk
    generalize V m c (Pipeline.arrRef spec0 11) = X
    rw [View.read_apply, cast_eq, emb11]
  exact h.trans (top_apply m c k l)

theorem bot_blk (c : Dev nD) (t : Fin cfg0.N) (k : Fin 128) (l : Fin 256) : iblk m c 12 t (ix2 k l) = (params m c).Wl1 l (Fin.natAdd 128 k) := by
  have h : iblk m c 12 t (ix2 k l) = V m c (Pipeline.arrRef spec0 12) (ix2 k l) := by
    unfold iblk
    generalize V m c (Pipeline.arrRef spec0 12) = X
    rw [View.read_apply, cast_eq, emb12]
  exact h.trans (bot_apply m c k l)

theorem bl1_blk (c : Dev nD) (t : Fin cfg0.N) (l : Fin 256) : iblk m c 13 t (ix2 (0 : Fin 1) l) = (params m c).bl1 l := by
  have h : iblk m c 13 t (ix2 (0 : Fin 1) l) = V m c (Pipeline.arrRef spec0 13) (ix2 (0 : Fin 1) l) := by
    unfold iblk
    generalize V m c (Pipeline.arrRef spec0 13) = X
    rw [View.read_apply, cast_eq, emb13]
  exact h.trans (bl1_apply m c l)

theorem wl2t_blk (c : Dev nD) (t : Fin cfg0.N) (l : Fin 256) (j : Fin 128) : iblk m c 14 t (ix2 l j) = (params m c).Wl2 j l := by
  have h : iblk m c 14 t (ix2 l j) = V m c (Pipeline.arrRef spec0 14) (ix2 l j) := by
    unfold iblk
    generalize V m c (Pipeline.arrRef spec0 14) = X
    rw [View.read_apply, cast_eq, emb14]
  exact h.trans (wl2t_apply m c l j)

theorem bl2_blk (c : Dev nD) (t : Fin cfg0.N) (j : Fin 128) : iblk m c 15 t (ix2 (0 : Fin 1) j) = (params m c).bl2 j := by
  have h : iblk m c 15 t (ix2 (0 : Fin 1) j) = V m c (Pipeline.arrRef spec0 15) (ix2 (0 : Fin 1) j) := by
    unfold iblk
    generalize V m c (Pipeline.arrRef spec0 15) = X
    rw [View.read_apply, cast_eq, emb15]
  exact h.trans (bl2_apply m c j)

end Cert.GinRow.Place

end
-- ==== Proof.GinFinal.lean ====
/-
  From blocks to the whole array.  The grid has 50 points; point t stages rows 2000·t … 2000·t + 1999 of the features
  and of the two neighbourhood-sum arrays, stages every weight array whole, and writes back rows 2000·t … 2000·t + 1999 of
  the result.  The body's stored block at (p, q) is the layer's row for the node in the block's row p, so what point t
  writes back is block t of the array whose row n is the layer's row for node n; the 50 blocks tile the 100000 rows, so
  after the run the result array is that array.
-/
import proofs.«104561_j60120952209623_2_alg».proof.Proof.Gen.KernelIdeal.Value
import proofs.«104561_j60120952209623_2_alg».proof.Proof.GinPayload
import proofs.«104561_j60120952209623_2_alg».proof.Proof.GinPlace

set_option maxRecDepth 16384

noncomputable section

namespace Cert.GinRow.Final

open Cert.KernelIdeal Cert.KernelIdeal.Gen Idealize.ShloMosaic Idealize.ShloMosaic.TcCoe Idealize.SL.Sem
open Idealize.ShloMosaic.ValueIdx
open Idealize.ShloMosaic.Pipeline (Dat)
open Cert.GinRow.Windows Cert.GinRow.Place

variable (m : (ℓ : Loc nD τ sig) → Buf (Elt Ideal) ℓ) (ρ : Dev nD → PrngReg)

/-! ## What a point writes back, the cover, the final array -/

/-- The result array as the kernel program's arguments determine it: row n is the layer's row for node n. -/
def target (c : Dev nD) : S100000x128.Idx → EReal :=
  result (params m c) (V m c (Pipeline.arrRef spec0 0)) (V m c (Pipeline.arrRef spec0 1)) (V m c (Pipeline.arrRef spec0 2))

/-- The body's result on point t's blocks, at (p, q), is the target at the node of row p. -/
theorem out_apply (c : Dev nD) (t : Fin cfg0.N) (p : Fin 2000) (q : Fin 128) :
    k0_pay1 (k0_pay6 (iblk m c 0 t) (k0_pay2 (iblk m c 2 t)) (iblk m c 7 t) (iblk m c 8 t) (iblk m c 9 t) (iblk m c 10 t))
        (k0_pay7 (k0_pay3 (iblk m c 0 t) (iblk m c 1 t)) (k0_pay4 (iblk m c 0 t) (iblk m c 1 t) (iblk m c 3 t) (iblk m c 4 t) (iblk m c 5 t))
          (k0_pay5 (iblk m c 6 t)))
        (iblk m c 11 t) (iblk m c 12 t) (iblk m c 13 t) (iblk m c 14 t) (iblk m c 15 t) (ix2 p q)
      = target m c (ix2 (node t p) q) := by
  refine (Cert.GinRow.Payload.payload_apply (params m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (w1t_blk m c t) (b1_blk m c t) (g1_blk m c t) (bt1_blk m c t) (w2t_blk m c t) (b2_blk m c t) (g2_blk m c t) (bt2_blk m c t)
    (top_blk m c t) (bot_blk m c t) (bl1_blk m c t) (wl2t_blk m c t) (bl2_blk m c t) p q).trans ?_
  have e0 : (fun k => iblk m c 0 t (ix2 p k)) = rowAt (V m c (Pipeline.arrRef spec0 0)) (node t p) := funext fun k => x_blk m c t p k
  have e1 : (fun k => iblk m c 1 t (ix2 p k)) = rowAt (V m c (Pipeline.arrRef spec0 1)) (node t p) := funext fun k => a1_blk m c t p k
  have e2 : (fun k => iblk m c 2 t (ix2 p k)) = rowAt (V m c (Pipeline.arrRef spec0 2)) (node t p) := funext fun k => a2_blk m c t p k
  rw [e0, e1, e2]
  exact (result_apply (params m c) (V m c (Pipeline.arrRef spec0 0)) (V m c (Pipeline.arrRef spec0 1)) (V m c (Pipeline.arrRef spec0 2))
    (node t p) q).symm

/-- WHAT POINT t WRITES BACK is block t of the target: the written-back part of the body's block is the block itself
    (the window is never cut at the array's end), entry (p, q) of it is the target at the node of row p, and block t of
    the target read at (p, q) is the target there. -/
theorem flushed_eq (c : Dev nD) (t : Fin cfg0.N) :
    (dats m 0 c).flushed 16 t = ((cfg0.win 16).blk t).view.read (Elt Ideal) (target m c) := by
  rw [Cert.KernelIdeal.Value.flushed16]
  unfold out0_16
  rw [View.canon_unit_zero hz]
  simp only [View.ld_unit_zero (S := S2000x128) hz, View.ld_unit_zero (S := S128x128) hz, View.ld_unit_zero (S := S1x128) hz,
    View.ld_unit_zero (S := S128x256) hz, View.ld_unit_zero (S := S1x256) hz, View.ld_unit_zero (S := S256x128) hz]
  funext y
  obtain ⟨p, q, rfl⟩ : ∃ (p : Fin 2000) (q : Fin 128), y = ix2 p q := ⟨y 0, y 1, eq_ix2 y⟩
  have hx : (cfg0.win 16).xinj (grid0.coords t) (ix2 p q) = ix2 p q :=
    funext fun a => Fin.ext (by match a with | ⟨0, _⟩ => rfl | ⟨1, _⟩ => rfl)
  dsimp only [Pipeline.Window.cut]
  rw [hx, View.read_apply, cast_eq, emb16]
  exact out_apply m c t p q

/-- An index of the array is in point t's block iff each coordinate is in the block's range on its axis. -/
theorem mem_blk (t : Fin cfg0.N) (i : S100000x128.Idx) :
    i ∈ ((cfg0.win 16).blk t).view.set ↔ ∀ a : Fin 2, win0_16.index t a * S2000x128.size a ≤ (i a).val ∧ (i a).val < win0_16.index t a * S2000x128.size a + S2000x128.size a := by
  show i ∈ ((View.whole main_v43).slice (win0_16.rect t)).set ↔ _
  rw [View.set_slice_whole, Rect.mem_set_unit]
  exact Iff.rfl

/-- Every index of the result array is in some point's block: row r is in the block of point r / 2000. -/
theorem cover (i : S100000x128.Idx) : ∃ t : Fin cfg0.N, (cfg0.win 16).flush t = true ∧ i ∈ ((cfg0.win 16).blk t).view.set := by
  have hi0 : (i 0).val < 100000 := (i 0).isLt
  have hi1 : (i 1).val < 128 := (i 1).isLt
  have hN : cfg0.N = 50 := N_0
  have ht : (i 0).val / 2000 < cfg0.N := by rw [hN]; omega
  refine ⟨⟨(i 0).val / 2000, ht⟩, flush0_16 _, ?_⟩
  rw [mem_blk]
  obtain ⟨-, -, -, ⟨e0, e1⟩, -⟩ := idx_facts ⟨(i 0).val / 2000, ht⟩
  intro a
  match a with
  | ⟨0, _⟩ =>
    show win0_16.index ⟨(i 0).val / 2000, ht⟩ (0 : Fin 2) * 2000 ≤ (i 0).val ∧ (i 0).val < win0_16.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_16.index ⟨(i 0).val / 2000, ht⟩ (1 : Fin 2) * 128 ≤ (i 1).val ∧ (i 1).val < win0_16.index ⟨(i 0).val / 2000, ht⟩ (1 : Fin 2) * 128 + 128
    rw [e1]; omega

/-- After the run the result array is the target. -/
theorem final (c : Dev nD) : (dats m 0 c).arrAt 16 cfg0.N = target m c :=
  (dats m 0 c).arrAt_eq_of_cover 16 (target m c) (fun t _ => flushed_eq m c t) cover

/-- The target in terms of the arguments alone: the features as launched, the neighbourhood sums as the reference names them. -/
theorem target_eq (c : Dev nD) :
    target m c = result (params m c) (m ((c : Thread nD τ).loc main_arg0))
      (Cert.ReferenceIdeal.Read.val_main_v13 (F := Ideal) (m ((c : Thread nD τ).loc main_arg0)) (m ((c : Thread nD τ).loc main_arg1)))
      (Cert.ReferenceIdeal.Read.val_main_v55 (F := Ideal) (m ((c : Thread nD τ).loc main_arg0)) (m ((c : Thread nD τ).loc main_arg1))) := by
  unfold target
  exact congr (congr (congrArg (result (params m c)) (V_main_arg0 m c)) (agg1_eq m c)) (agg2_eq m c)

/-- The kernel program's run, read: the result array at the layer applied row by row, the arguments unchanged. -/
theorem run : θ_run defs (onTc (τ := τ) (main (F := Ideal))) ⟨m, fun _ => 0, ρ⟩ fun r => ∀ c : Dev nD,
      r.2.mem ((c : Thread nD τ).loc main_v43) = result (params m c) (m ((c : Thread nD τ).loc main_arg0))
          (Cert.ReferenceIdeal.Read.val_main_v13 (F := Ideal) (m ((c : Thread nD τ).loc main_arg0)) (m ((c : Thread nD τ).loc main_arg1)))
          (Cert.ReferenceIdeal.Read.val_main_v55 (F := Ideal) (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans ((final m c).trans (target_eq m c)), (h c).2⟩)
    (Cert.KernelIdeal.Value.run_blocks m ρ)

end Cert.GinRow.Final

end
-- ==== Proof.GinRefBranch.lean ====
/-
  The reference program's two branches, each read at an entry (n, j): the branch's row for node n, at j, as the row
  specification states it.  Each step of the host computation reads one entry of its operands: the affine image of
  h = x + a, the row's mean kept as a column, the centred entries, the mean squared deviation, the normalised entries,
  then gain, shift, clipping at zero and the residual sum.
-/
import proofs.«104561_j60120952209623_2_alg».proof.Proof.Gen.ReferenceIdeal.Read
import proofs.«104561_j60120952209623_2_alg».proof.Proof.GinRow

noncomputable section

namespace Cert.GinRow.Ref

open Cert.ReferenceIdeal Cert.ReferenceIdeal.Read Idealize.ShloMosaic Idealize.ShloMosaic.ValueIdx

/-- Two indices of a rank-2 shape are equal when their coordinates are. -/
local macro "idx_eq2" : tactic => `(tactic| (funext a; apply Fin.ext; match a with | ⟨0, _⟩ => rfl | ⟨1, _⟩ => rfl))
/-- Two indices of a rank-1 shape are equal when their coordinate is. -/
local macro "idx_eq1" : tactic => `(tactic| (funext a; apply Fin.ext; match a with | ⟨0, _⟩ => rfl))

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))

/-! ## The first branch (edges as given) -/

/-- The affine image of h = x + a, row n, entry j. -/
theorem b1_lin_apply (n : Fin 100000) (j : Fin 128) :
    val_main_v19 (F := Ideal) x0 x1 x2 x3 (ix2 n j)
      = affine (fun k => x0 (ix2 n k) + val_main_v13 (F := Ideal) x0 x1 (ix2 n k)) (fun j k => x2 (ix2 j k)) (fun j => x3 (ix1 j)) j := by
  rw [val_main_v19_apply, val_main_v16_apply, val_main_v18_apply, val_main_v17_apply]
  unfold affine
  show _ + _ = _
  refine congrArg₂ (· + ·) (Finset.sum_congr rfl fun k _ => congrArg₂ (· * ·) ?_ ?_) (congrArg x3 (by idx_eq1))
  · rw [show lidx_main_v16 (ix2 n j) k = ix2 n k by idx_eq2, val_main_v14_apply]; rfl
  · rw [show ridx_main_v16 (ix2 n j) k = ix2 k j by idx_eq2, val_main_v15_apply]
    exact congrArg x2 (by idx_eq2)

/-- The mean of row n of the affine image, as the column entry (n, 0). -/
theorem b1_mean_apply (n : Fin 100000) :
    val_main_v23 (F := Ideal) x0 x1 x2 x3 (ix2 n (0 : Fin 1)) = mean (fun k => val_main_v19 (F := Ideal) x0 x1 x2 x3 (ix2 n k)) := by
  rw [val_main_v23_apply, val_main_v21_apply, val_main_v20_apply, val_main_v22_apply]
  show Ideal.div (Ideal.ofBits .f32 0x00000000#32 + _) (Ideal.ofBits .f32 0x43000000#32) = _
  rw [Ideal.ofBits_zero_f32, zero_add]
  exact congrArg (Ideal.div · _) (Finset.sum_congr rfl fun k _ => congrArg _ (by idx_eq2))

/-- The centred entry (n, k), as the squares' sum takes it. -/
theorem b1_cent_apply (n : Fin 100000) (k : Fin 128) :
    val_main_v25 (F := Ideal) x0 x1 x2 x3 (ix2 n k)
      = val_main_v19 (F := Ideal) x0 x1 x2 x3 (ix2 n k) - mean (fun k => val_main_v19 (F := Ideal) x0 x1 x2 x3 (ix2 n k)) := by
  rw [val_main_v25_apply, val_main_v24_apply, show idx_main_v24 (ix2 n k) = ix2 n (0 : Fin 1) by idx_eq2, b1_mean_apply]
  rfl

/-- The centred entry (n, k), as the normalisation takes it. -/
theorem b1_cent'_apply (n : Fin 100000) (k : Fin 128) :
    val_main_v32 (F := Ideal) x0 x1 x2 x3 (ix2 n k)
      = val_main_v19 (F := Ideal) x0 x1 x2 x3 (ix2 n k) - mean (fun k => val_main_v19 (F := Ideal) x0 x1 x2 x3 (ix2 n k)) := by
  rw [val_main_v32_apply, val_main_v31_apply, show idx_main_v31 (ix2 n k) = ix2 n (0 : Fin 1) by idx_eq2, b1_mean_apply]
  rfl

/-- The mean squared deviation of row n, as the column entry (n, 0). -/
theorem b1_var_apply (n : Fin 100000) :
    val_main_v30 (F := Ideal) x0 x1 x2 x3 (ix2 n (0 : Fin 1))
      = mean (fun k => (val_main_v19 (F := Ideal) x0 x1 x2 x3 (ix2 n k) - mean (fun k => val_main_v19 (F := Ideal) x0 x1 x2 x3 (ix2 n k)))
          * (val_main_v19 (F := Ideal) x0 x1 x2 x3 (ix2 n k) - mean (fun k => val_main_v19 (F := Ideal) x0 x1 x2 x3 (ix2 n k)))) := by
  rw [val_main_v30_apply, val_main_v28_apply, val_main_v27_apply, val_main_v29_apply]
  show Ideal.div (Ideal.ofBits .f32 0x00000000#32 + _) (Ideal.ofBits .f32 0x43000000#32) = _
  rw [Ideal.ofBits_zero_f32, zero_add]
  refine congrArg (Ideal.div · _) (Finset.sum_congr rfl fun k _ => ?_)
  rw [show idx_main_v27 (idx_main_v28 (ix2 n (0 : Fin 1))) k = ix2 n k by idx_eq2, val_main_v26_apply, b1_cent_apply]
  rfl

/-- The normalised entry (n, j). -/
theorem b1_normed_apply (n : Fin 100000) (j : Fin 128) :
    val_main_v37 (F := Ideal) x0 x1 x2 x3 (ix2 n j) = normed (fun k => val_main_v19 (F := Ideal) x0 x1 x2 x3 (ix2 n k)) j := by
  rw [val_main_v37_apply, b1_cent'_apply, val_main_v36_apply, show idx_main_v36 (ix2 n j) = ix2 n (0 : Fin 1) by idx_eq2,
    val_main_v35_apply, val_main_v34_apply, b1_var_apply, val_main_v33_apply]
  rfl

/-- The branch's row: h + relu(normed(affine h)·γ + β) with h = x + a. -/
theorem b1_branch_apply (n : Fin 100000) (j : Fin 128) :
    val_main_v45 (F := Ideal) x0 x1 x2 x3 x4 x5 (ix2 n j)
      = branch (rowAt x0 n) (rowAt (val_main_v13 (F := Ideal) x0 x1) n) (fun j k => x2 (ix2 j k)) (fun j => x3 (ix1 j))
          (fun j => x4 (ix1 j)) (fun j => x5 (ix1 j)) j := by
  rw [val_main_v45_apply, val_main_v44_apply, val_main_v43_apply, val_main_v40_apply, b1_normed_apply,
    val_main_v39_apply, val_main_v38_apply, val_main_v42_apply, val_main_v41_apply, val_main_call0_v0_apply,
    val_main_v14_apply]
  unfold branch relu rowAt
  show (_ + _) + max (normed _ j * _ + _) _ = _
  refine congrArg₂ (· + ·) rfl (congrArg (max · _) (congrArg₂ (· + ·) (congrArg₂ (· * ·) ?_ ?_) ?_))
  · exact congrArg (normed · j) (funext fun l => b1_lin_apply x0 x1 x2 x3 n l)
  · exact congrArg x4 (by idx_eq1)
  · exact congrArg x5 (by idx_eq1)

/-! ## The second branch (edges reversed) -/

/-- The affine image of h = x + a, row n, entry j. -/
theorem b2_lin_apply (n : Fin 100000) (j : Fin 128) :
    val_main_v61 (F := Ideal) x0 x1 x6 x7 (ix2 n j)
      = affine (fun k => x0 (ix2 n k) + val_main_v55 (F := Ideal) x0 x1 (ix2 n k)) (fun j k => x6 (ix2 j k)) (fun j => x7 (ix1 j)) j := by
  rw [val_main_v61_apply, val_main_v58_apply, val_main_v60_apply, val_main_v59_apply]
  unfold affine
  show _ + _ = _
  refine congrArg₂ (· + ·) (Finset.sum_congr rfl fun k _ => congrArg₂ (· * ·) ?_ ?_) (congrArg x7 (by idx_eq1))
  · rw [show lidx_main_v58 (ix2 n j) k = ix2 n k by idx_eq2, val_main_v56_apply]; rfl
  · rw [show ridx_main_v58 (ix2 n j) k = ix2 k j by idx_eq2, val_main_v57_apply]
    exact congrArg x6 (by idx_eq2)

/-- The mean of row n of the affine image, as the column entry (n, 0). -/
theorem b2_mean_apply (n : Fin 100000) :
    val_main_v65 (F := Ideal) x0 x1 x6 x7 (ix2 n (0 : Fin 1)) = mean (fun k => val_main_v61 (F := Ideal) x0 x1 x6 x7 (ix2 n k)) := by
  rw [val_main_v65_apply, val_main_v63_apply, val_main_v62_apply, val_main_v64_apply]
  show Ideal.div (Ideal.ofBits .f32 0x00000000#32 + _) (Ideal.ofBits .f32 0x43000000#32) = _
  rw [Ideal.ofBits_zero_f32, zero_add]
  exact congrArg (Ideal.div · _) (Finset.sum_congr rfl fun k _ => congrArg _ (by idx_eq2))

/-- The centred entry (n, k), as the squares' sum takes it. -/
theorem b2_cent_apply (n : Fin 100000) (k : Fin 128) :
    val_main_v67 (F := Ideal) x0 x1 x6 x7 (ix2 n k)
      = val_main_v61 (F := Ideal) x0 x1 x6 x7 (ix2 n k) - mean (fun k => val_main_v61 (F := Ideal) x0 x1 x6 x7 (ix2 n k)) := by
  rw [val_main_v67_apply, val_main_v66_apply, show idx_main_v66 (ix2 n k) = ix2 n (0 : Fin 1) by idx_eq2, b2_mean_apply]
  rfl

/-- The centred entry (n, k), as the normalisation takes it. -/
theorem b2_cent'_apply (n : Fin 100000) (k : Fin 128) :
    val_main_v74 (F := Ideal) x0 x1 x6 x7 (ix2 n k)
      = val_main_v61 (F := Ideal) x0 x1 x6 x7 (ix2 n k) - mean (fun k => val_main_v61 (F := Ideal) x0 x1 x6 x7 (ix2 n k)) := by
  rw [val_main_v74_apply, val_main_v73_apply, show idx_main_v73 (ix2 n k) = ix2 n (0 : Fin 1) by idx_eq2, b2_mean_apply]
  rfl

/-- The mean squared deviation of row n, as the column entry (n, 0). -/
theorem b2_var_apply (n : Fin 100000) :
    val_main_v72 (F := Ideal) x0 x1 x6 x7 (ix2 n (0 : Fin 1))
      = mean (fun k => (val_main_v61 (F := Ideal) x0 x1 x6 x7 (ix2 n k) - mean (fun k => val_main_v61 (F := Ideal) x0 x1 x6 x7 (ix2 n k)))
          * (val_main_v61 (F := Ideal) x0 x1 x6 x7 (ix2 n k) - mean (fun k => val_main_v61 (F := Ideal) x0 x1 x6 x7 (ix2 n k)))) := by
  rw [val_main_v72_apply, val_main_v70_apply, val_main_v69_apply, val_main_v71_apply]
  show Ideal.div (Ideal.ofBits .f32 0x00000000#32 + _) (Ideal.ofBits .f32 0x43000000#32) = _
  rw [Ideal.ofBits_zero_f32, zero_add]
  refine congrArg (Ideal.div · _) (Finset.sum_congr rfl fun k _ => ?_)
  rw [show idx_main_v69 (idx_main_v70 (ix2 n (0 : Fin 1))) k = ix2 n k by idx_eq2, val_main_v68_apply, b2_cent_apply]
  rfl

/-- The normalised entry (n, j). -/
theorem b2_normed_apply (n : Fin 100000) (j : Fin 128) :
    val_main_v79 (F := Ideal) x0 x1 x6 x7 (ix2 n j) = normed (fun k => val_main_v61 (F := Ideal) x0 x1 x6 x7 (ix2 n k)) j := by
  rw [val_main_v79_apply, b2_cent'_apply, val_main_v78_apply, show idx_main_v78 (ix2 n j) = ix2 n (0 : Fin 1) by idx_eq2,
    val_main_v77_apply, val_main_v76_apply, b2_var_apply, val_main_v75_apply]
  rfl

/-- The branch's row: h + relu(normed(affine h)·γ + β) with h = x + a. -/
theorem b2_branch_apply (n : Fin 100000) (j : Fin 128) :
    val_main_v87 (F := Ideal) x0 x1 x6 x7 x8 x9 (ix2 n j)
      = branch (rowAt x0 n) (rowAt (val_main_v55 (F := Ideal) x0 x1) n) (fun j k => x6 (ix2 j k)) (fun j => x7 (ix1 j))
          (fun j => x8 (ix1 j)) (fun j => x9 (ix1 j)) j := by
  rw [val_main_v87_apply, val_main_v86_apply, val_main_v85_apply, val_main_v82_apply, b2_normed_apply,
    val_main_v81_apply, val_main_v80_apply, val_main_v84_apply, val_main_v83_apply, val_main_call1_v0_apply,
    val_main_v56_apply]
  unfold branch relu rowAt
  show (_ + _) + max (normed _ j * _ + _) _ = _
  refine congrArg₂ (· + ·) rfl (congrArg (max · _) (congrArg₂ (· + ·) (congrArg₂ (· * ·) ?_ ?_) ?_))
  · exact congrArg (normed · j) (funext fun l => b2_lin_apply x0 x1 x6 x7 n l)
  · exact congrArg x8 (by idx_eq1)
  · exact congrArg x9 (by idx_eq1)

end Cert.GinRow.Ref

end
-- ==== Proof.GinRefMerge.lean ====
/-
  The reference program's merge network read at an entry, and with it the whole reference result: row n of the result is
  the layer's row for node n.  The two branch rows are laid side by side; the contraction of the 256 joined entries with a
  row of the first merge weight splits into the first branch's 128 entries against the weight's columns 0 … 127 plus the
  second's against columns 128 … 255, which is the form the row specification states.
-/
import proofs.«104561_j60120952209623_2_alg».proof.Proof.GinRefBranch

noncomputable section

namespace Cert.GinRow.Ref

open Cert.ReferenceIdeal Cert.ReferenceIdeal.Gen Cert.ReferenceIdeal.Read Idealize.ShloMosaic Idealize.ShloMosaic.ValueIdx

local macro "idx_eq2" : tactic => `(tactic| (funext a; apply Fin.ext; match a with | ⟨0, _⟩ => rfl | ⟨1, _⟩ => rfl))
local macro "idx_eq1" : tactic => `(tactic| (funext a; apply Fin.ext; match a with | ⟨0, _⟩ => rfl))

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S256x256, .f32⟩ : BufTy).Contents (Elt Ideal)) (x11 : (⟨S256, .f32⟩ : BufTy).Contents (Elt Ideal))
  (x12 : (⟨S128x256, .f32⟩ : BufTy).Contents (Elt Ideal)) (x13 : (⟨S128, .f32⟩ : BufTy).Contents (Elt Ideal))

/-- Columns 0 … 127 of the joined rows are the first branch's. -/
theorem joined_left (n : Fin 100000) (k : Fin 128) :
    val_main_v88 (F := Ideal) x0 x1 x2 x3 x4 x5 x6 x7 x8 x9 (ix2 n (Fin.castAdd 128 k)) = val_main_v45 (F := Ideal) x0 x1 x2 x3 x4 x5 (ix2 n k) := by
  unfold val_main_v88
  exact concatenate_pair_apply_left (t := S100000x256) (s₁ := S100000x128) (s₂ := S100000x128) (1 : Fin 2) _ _ _
    (ix2 n (Fin.castAdd 128 k)) rfl (ix2 n k) (fun b => match b with | ⟨0, _⟩ => rfl | ⟨1, _⟩ => rfl)

/-- Columns 128 … 255 of the joined rows are the second branch's. -/
theorem joined_right (n : Fin 100000) (k : Fin 128) :
    val_main_v88 (F := Ideal) x0 x1 x2 x3 x4 x5 x6 x7 x8 x9 (ix2 n (Fin.natAdd 128 k)) = val_main_v87 (F := Ideal) x0 x1 x6 x7 x8 x9 (ix2 n k) := by
  unfold val_main_v88
  exact concatenate_pair_apply_right (t := S100000x256) (s₁ := S100000x128) (s₂ := S100000x128) (1 : Fin 2) _ _ _
    (ix2 n (Fin.natAdd 128 k)) rfl rfl (ix2 n k)
    (fun b hb => match b, hb with | ⟨0, _⟩, _ => rfl | ⟨1, _⟩, hb => absurd rfl hb)
    (Nat.add_comm _ _)

/-- A hidden entry of the merge network. -/
theorem hidden_apply (n : Fin 100000) (l : Fin 256) :
    val_main_v94 (F := Ideal) x0 x1 x2 x3 x4 x5 x6 x7 x8 x9 x10 x11 (ix2 n l)
      = hidden (paramsOf x2 x3 x4 x5 x6 x7 x8 x9 x10 x11 x12 x13) (fun k => val_main_v45 (F := Ideal) x0 x1 x2 x3 x4 x5 (ix2 n k))
          (fun k => val_main_v87 (F := Ideal) x0 x1 x6 x7 x8 x9 (ix2 n k)) l := by
  rw [val_main_v94_apply, val_main_v93_apply, val_main_v90_apply, val_main_v92_apply, val_main_v91_apply, val_main_call2_v0_apply]
  unfold hidden relu
  show max (_ + _) _ = _
  refine congrArg (max · _) (congrArg₂ (· + ·) ?_ (congrArg x11 (by idx_eq1)))
  rw [sum_split]
  refine congrArg₂ (· + ·) (Finset.sum_congr rfl fun k _ => congrArg₂ (· * ·) ?_ ?_)
    (Finset.sum_congr rfl fun k _ => congrArg₂ (· * ·) ?_ ?_)
  · rw [show lidx_main_v90 (ix2 n l) (Fin.castAdd 128 k) = ix2 n (Fin.castAdd 128 k) by idx_eq2]
    exact joined_left x0 x1 x2 x3 x4 x5 x6 x7 x8 x9 n k
  · rw [show ridx_main_v90 (ix2 n l) (Fin.castAdd 128 k) = ix2 (Fin.castAdd 128 k) l by idx_eq2, val_main_v89_apply]
    exact congrArg x10 (by idx_eq2)
  · rw [show lidx_main_v90 (ix2 n l) (Fin.natAdd 128 k) = ix2 n (Fin.natAdd 128 k) by idx_eq2]
    exact joined_right x0 x1 x2 x3 x4 x5 x6 x7 x8 x9 n k
  · rw [show ridx_main_v90 (ix2 n l) (Fin.natAdd 128 k) = ix2 (Fin.natAdd 128 k) l by idx_eq2, val_main_v89_apply]
    exact congrArg x10 (by idx_eq2)

/-- Entry (n, j) of the reference's result is the layer's row for node n, at j. -/
theorem out_apply (n : Fin 100000) (j : Fin 128) :
    val_main_v100 (F := Ideal) x0 x1 x2 x3 x4 x5 x6 x7 x8 x9 x10 x11 x12 x13 (ix2 n j)
      = rowOut (paramsOf x2 x3 x4 x5 x6 x7 x8 x9 x10 x11 x12 x13) (rowAt x0 n) (rowAt (val_main_v13 (F := Ideal) x0 x1) n) (rowAt (val_main_v55 (F := Ideal) x0 x1) n) j := by
  rw [val_main_v100_apply, val_main_v99_apply, val_main_v96_apply, val_main_v98_apply, val_main_v97_apply, val_main_call3_v0_apply]
  unfold rowOut relu affine
  show max (_ + _) _ = _
  refine congrArg (max · _) (congrArg₂ (· + ·) (Finset.sum_congr rfl fun l _ => congrArg₂ (· * ·) ?_ ?_) (congrArg x13 (by idx_eq1)))
  · rw [show lidx_main_v96 (ix2 n j) l = ix2 n l by idx_eq2, hidden_apply]
    exact congrFun (congrArg₂ (hidden (paramsOf x2 x3 x4 x5 x6 x7 x8 x9 x10 x11 x12 x13)) (funext fun k => b1_branch_apply x0 x1 x2 x3 x4 x5 n k)
      (funext fun k => b2_branch_apply x0 x1 x6 x7 x8 x9 n k)) l
  · rw [show ridx_main_v96 (ix2 n j) l = ix2 l j by idx_eq2, val_main_v95_apply]
    exact congrArg x12 (by idx_eq2)

/-- The reference's result array is the layer applied row by row. -/
theorem out_eq :
    val_main_v100 (F := Ideal) x0 x1 x2 x3 x4 x5 x6 x7 x8 x9 x10 x11 x12 x13
      = result (paramsOf x2 x3 x4 x5 x6 x7 x8 x9 x10 x11 x12 x13) x0 (val_main_v13 (F := Ideal) x0 x1) (val_main_v55 (F := Ideal) x0 x1) := by
  funext i
  rw [eq_ix2 i]
  exact out_apply x0 x1 x2 x3 x4 x5 x6 x7 x8 x9 x10 x11 x12 x13 (i 0) (i 1)

end Cert.GinRow.Ref

end
-- ==== Proof.lean ====
/-
  A two-branch residual graph layer with a merge network, computed by a fused kernel over blocks of 2000 nodes, against
  the same layer written with whole-array operations.

  Both programs first form, on the host, the two neighbourhood sums of the node features along the edge list (a gather of
  the features at one end of every edge, scatter-added at the other end; once per edge direction).  These are the same
  operations of the same arguments in both programs, so they enter the proof as two arrays a₁, a₂ that are never opened.

  For a node n with feature row x, the layer's row is
      out = relu(W₂ₗ · relu(W₁ₗ · [r₁ ‖ r₂] + b₁ₗ) + b₂ₗ),   rᵢ = hᵢ + relu(norm(Wᵢ hᵢ + bᵢ) · γᵢ + βᵢ),   hᵢ = x + aᵢ(n),
  where norm takes a row of 128 entries to mean zero and unit variance (the variance shifted by a small constant before the
  reciprocal square root).  The kernel reads its weights transposed and computes W₁ₗ · [r₁ ‖ r₂] as the first 128 columns
  against r₁ plus the last 128 against r₂; the reference joins r₁ and r₂ and contracts all 256 columns at once.  On the
  extended reals a change of float format is the identity, a product into a zero accumulator and a host contraction are the
  same sum, and a sum over 256 columns splits into the two sums over 128 — a law of commutative monoids, so the finiteness
  of the inputs is never used.  Every float constant (128, the variance shift, zero) is the same word in both programs.

  The kernel's result array is the layer applied row by row because point t of the grid writes back rows
  2000·t … 2000·t + 1999, computed from the same rows of x, a₁, a₂, and the 50 blocks tile the 100000 rows.  The two word-level
  and idealized frames are the generated ones; the reference's frame is its generated run with the result dropped; the
  idealization rewrote nothing, so there is nothing to preserve.
-/
import proofs.«104561_j60120952209623_2_alg».proof.Defs
import proofs.«104561_j60120952209623_2_alg».proof.Proof.Gen.Kernel
import proofs.«104561_j60120952209623_2_alg».proof.Proof.Gen.Kernel.Skeleton
import proofs.«104561_j60120952209623_2_alg».proof.Proof.Gen.Kernel.Launch
import proofs.«104561_j60120952209623_2_alg».proof.Proof.Gen.Kernel.Points
import proofs.«104561_j60120952209623_2_alg».proof.Proof.Gen.Kernel.Frame
import proofs.«104561_j60120952209623_2_alg».proof.Proof.Gen.KernelIdeal
import proofs.«104561_j60120952209623_2_alg».proof.Proof.Gen.KernelIdeal.Skeleton
import proofs.«104561_j60120952209623_2_alg».proof.Proof.Gen.KernelIdeal.Launch
import proofs.«104561_j60120952209623_2_alg».proof.Proof.Gen.KernelIdeal.Points
import proofs.«104561_j60120952209623_2_alg».proof.Proof.Gen.KernelIdeal.Frame
import proofs.«104561_j60120952209623_2_alg».proof.Proof.Gen.ReferenceIdeal
import proofs.«104561_j60120952209623_2_alg».proof.Proof.Gen.Pre_finite_inputs
import proofs.«104561_j60120952209623_2_alg».proof.Proof.Gen.KernelIdeal.Value
import proofs.«104561_j60120952209623_2_alg».proof.Proof.Gen.ReferenceIdeal.Run
import proofs.«104561_j60120952209623_2_alg».proof.Proof.Gen.ReferenceIdeal.Read
import proofs.«104561_j60120952209623_2_alg».proof.Proof.GinFinal
import proofs.«104561_j60120952209623_2_alg».proof.Proof.GinRefMerge
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- The idealized kernel program runs and leaves its arguments as they were. -/
theorem frame_kernelIdeal : Cert.frame_KernelIdeal := fun m ρ _ => Cert.KernelIdeal.Gen.frame m ρ

/-- The idealized reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer applied row by row to the same features,
    neighbourhood sums and weights. -/
theorem algebraic : Cert.algebraic_KernelIdeal_ReferenceIdeal := by
  intro m ρ m' ρ' _ hagree
  refine ⟨fun c => Cert.GinRow.result (Cert.GinRow.Windows.params m c) (m ((c.tc : Thread Cert.KernelIdeal.nD Cert.KernelIdeal.τ).loc Cert.KernelIdeal.main_arg0))
      (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    Cert.GinRow.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, Cert.GinRow.Ref.out_eq]
  obtain ⟨h0, h1, h2, h3, h4, h5, h6, h7, h8, h9, h10, h11, h12, h13⟩ := hagree c
  rw [h0, h1, h2, h3, h4, h5, h6, h7, h8, h9, h10, h11, h12, h13]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
